-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192x8 : Shape := ⟨2, ![8192, 8]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_

variable [Facts]

def fn {F : FTy → Type} [FloatOps F] (main_arg0 : FVec F S8192x2 .f32) (main_arg1 : FVec F S8192x8 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  main_v8
-- ==== Kernel.lean ====
abbrev S8192x2 : Shape := ⟨2, ![8192, 2]⟩
abbrev S8192x8 : Shape := ⟨2, ![8192, 8]⟩
abbrev S1x1 : Shape := ⟨2, ![1, 1]⟩
abbrev S512x2 : Shape := ⟨2, ![512, 2]⟩
abbrev S512x8 : Shape := ⟨2, ![512, 8]⟩
abbrev S512 : Shape := ⟨1, ![512]⟩
abbrev S512x1 : Shape := ⟨2, ![512, 1]⟩
abbrev S1x512 : Shape := ⟨2, ![1, 512]⟩
abbrev S2x512 : Shape := ⟨2, ![2, 512]⟩
abbrev S512x512 : Shape := ⟨2, ![512, 512]⟩
abbrev S8x512 : Shape := ⟨2, ![8, 512]⟩
abbrev S1x512x512 : Shape := ⟨3, ![1, 512, 512]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S8192x2, .f32⟩
  | .hbm, ⟨1, _⟩ => ⟨S8192x8, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x2, .f32⟩
  | .local _ .vmem, ⟨1, _⟩ => ⟨S512x2, .f32⟩
  | .local _ .vmem, ⟨2, _⟩ => ⟨S512x2, .f32⟩
  | .local _ .vmem, ⟨3, _⟩ => ⟨S512x2, .f32⟩
  | .local _ .vmem, ⟨4, _⟩ => ⟨S512x8, .f32⟩
  | .local _ .vmem, ⟨5, _⟩ => ⟨S512x8, .f32⟩
  | .local _ .vmem, ⟨6, _⟩ => ⟨S512x8, .f32⟩
  | .local _ .vmem, ⟨7, _⟩ => ⟨S512x8, .f32⟩
  | .local _ .vmem, ⟨8, _⟩ => ⟨S1x1, .f32⟩
  | .local _ .vmem, ⟨9, _⟩ => ⟨S1x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2_S512x2_0_0 : ∀ a, (![0, 0] : Fin 2 → Nat) a + S512x2.size a ≤ S512x2.size a
  h_S512x2 : 0 < S512x2.numel
  reduces_S512x2_S512 : S512x2.Reduces [1] S512
  shapeCasts_S512_S512x1 : S512.ShapeCasts S512x1
  transposes_S512x1_p1_0_S1x512 : S512x1.Transposes [1, 0] S1x512
  transposes_S512x2_p1_0_S2x512 : S512x2.Transposes [1, 0] S2x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  inb_S512x8_S512x8_0_0 : ∀ a, (![0, 0] : Fin 2 → Nat) a + S512x8.size a ≤ S512x8.size a
  h_S512x8 : 0 < S512x8.numel
  reduces_S512x8_S512 : S512x8.Reduces [1] S512
  transposes_S512x8_p1_0_S8x512 : S512x8.Transposes [1, 0] S8x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S512x2_S2x512_S512x512_1_0_0_1_n_n_wf : DotDims.WF S512x2 S2x512 S512x512 [1] [0] [0] [1] [] []
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S8192x2.size a
  hwx0_0 : ∀ i : grid0.Coords, EltTy.bits .f32 = 32 ∨ (Rect.block (s := S8192x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S8192x2.size a
  hwx0_1 : ∀ i : grid0.Coords, EltTy.bits .f32 = 32 ∨ (Rect.block (s := S8192x2) S512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S8192x8.size a
  hwx0_2 : ∀ i : grid0.Coords, EltTy.bits .f32 = 32 ∨ (Rect.block (s := S8192x8) S512x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S8192x8.size a
  hwx0_3 : ∀ i : grid0.Coords, EltTy.bits .f32 = 32 ∨ (Rect.block (s := S8192x8) S512x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x2_S2x512_S512x512_1_0_0_1_n_n : DotDims S512x2 S2x512 S512x512 where
  lhsContracting := [1]
  rhsContracting := [0]
  lhsNonContracting := [0]
  rhsNonContracting := [1]
  lhsBatch := []
  rhsBatch := []
  wf := dot_S512x2_S2x512_S512x512_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩
abbrev S8x8192 : Shape := ⟨2, ![8, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192x8, .f32⟩
  | .hbm, ⟨2, _⟩ => ⟨S8192x2, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S2x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .i32⟩
  | .hbm, ⟨41, _⟩ => ⟨S8192x8192, .i32⟩
  | .hbm, ⟨42, _⟩ => ⟨S_, .i32⟩
  | .hbm, ⟨43, _⟩ => ⟨S8192x8192, .i32⟩
  | .hbm, ⟨44, _⟩ => ⟨S8192x8192, .i32⟩
  | .hbm, ⟨45, _⟩ => ⟨S8192x8192, .i1⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x8, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S1x8192, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S8x8192, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .i1⟩
  | .hbm, ⟨71, _⟩ => ⟨S_, .f32⟩
  | .hbm, ⟨72, _⟩ => ⟨S8192x8192, .f32⟩
  | .hbm, ⟨73, _⟩ => ⟨S8192x8192, .i1⟩
  | .hbm, ⟨74, _⟩ => ⟨S_, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_call2_v0 : Ref sig .tc := ⟨.hbm, 75, rfl⟩
abbrev main_call2_v1 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_call3_v0 : Ref sig .tc := ⟨.hbm, 80, rfl⟩
abbrev main_call3_v1 : Ref sig .tc := ⟨.hbm, 81, rfl⟩
abbrev main_v55 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩

abbrev nD : Nat := 1
abbrev τ : Topo := Topo.v7x

variable {F : FTy → Type} [FloatOps F]

class Facts₀ : Prop where
  reducesTo_S8192x2_S8192_d1 : S8192x2.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  reducesTo_S8192x8_S8192_d1 : S8192x8.ReducesTo [1] S8192
  transposes_S8192x8_S8x8192_1_0 : S8192x8.Transposes [1, 0] S8x8192
  reducesTo_S8192x8192_S_d0_1 : S8192x8192.ReducesTo [0, 1] S_
  dot_S8192x2_S2x8192_S8192x8192_1_0_0_1_n_n_wf : DotDims.WF S8192x2 S2x8192 S8192x8192 [1] [0] [0] [1] [] []
  dot_S8192x8_S8x8192_S8192x8192_1_0_0_1_n_n_wf : DotDims.WF S8192x8 S8x8192 S8192x8192 [1] [0] [0] [1] [] []

variable [Facts₀]

def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf
def dot_S8192x8_S8x8192_S8192x8192_1_0_0_1_n_n : DotDims S8192x8 S8x8192 S8192x8192 where
  lhsContracting := [1]
  rhsContracting := [0]
  lhsNonContracting := [0]
  rhsNonContracting := [1]
  lhsBatch := []
  rhsBatch := []
  wf := dot_S8192x8_S8x8192_S8192x8192_1_0_0_1_n_n_wf

class Facts : Prop extends Facts₀ where

variable [Facts]
-- ==== Proof.Ideal.Setting.lean ====
/-
  The pairwise-sum kernel as the pipeline runs it: what its buffers hold when the region is entered, @main as
  "the region, then five scalar host lines", each window's block of rows read off its array, the one branch of
  the body (the accumulator is cleared exactly at the first grid point) decided over the 16 x 16 grid, and the
  names of the memrefs the body is called with. Everything here holds at any float instance.
-/
import proofs.«169935_j73100343378533_1_alg».proof.Proof.Gen.KernelIdeal.Launch
import proofs.«169935_j73100343378533_1_alg».proof.Proof.Gen.KernelIdeal.Skeleton
import proofs.«169935_j73100343378533_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: no host line precedes it, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the five scalar lines (reshape, the two constants, the product, the quotient). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block of rows at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or kept it from the point before (the block index did not move): for any proof data over the entry contents
    whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition under which the body clears its accumulator: both grid coordinates are zero (the scalar chain
    of the printed `scf.if`). -/
abbrev atStart (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first of the 256 points and at no other. -/
theorem atStart_iff : ∀ t : Fin cfg0.N, atStart (grid0.coords t) ↔ t.val = 0 :=
  (by decide +kernel : ∀ t : Fin grid0.N, atStart (grid0.coords t) ↔ t.val = 0)

/-- No window is ever idle: every point loads all four inputs and stores the output. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with -/

/-- The views through which the output's staging buffer and the accumulator are read back. -/
abbrev outView : View sig .tc .vmem S1x1 .f32 := (Memref.whole cc0_stg4_0 : Memref sig .tc .vmem S1x1 .f32).view
abbrev accMem : Memref sig .tc .vmem S1x1 .f32 := Memref.whole cc0_scratch0
abbrev accView : View sig .tc .vmem S1x1 .f32 := accMem.view

abbrev ms0 (t : Fin cfg0.N) : Memref sig .tc .vmem S512x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x8 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x8 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- What the region's invariant holds besides the windows: the accumulator at some contents and the generator
    register at some state. -/
theorem PhiA_eq (c : Dev nD) :
    (Pipeline.ΦA spec0 c : sProp 𝕄)
      = iprop(iprop((∃ d, owns (c : Thread nD τ) accMem fullShare d)) ∗ (∃ r, prngReg c r)) := by
  unfold Pipeline.ΦA; rw [scopedRest0_eq]; simp only [accMem, owns_whole]; try rfl

end Cert.KernelIdeal.Pair

end
-- ==== Proof.Ideal.RunStart.lean ====
/-
  The body at the first grid point, on any whole memrefs: the accumulator, whatever it held, is cleared, the tile's
  weighted sum is added to it, and the result is copied to the output's buffer. Stated as the pieces the two written
  buffers end with, together with the run that finds them.
-/
import proofs.«169935_j73100343378533_1_alg».proof.Proof.Ideal.Setting

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where both grid coordinates are zero: inputs kept, output and accumulator left as the stores' pieces. -/
noncomputable def runStart (c : Dev nD) (i : grid0.Coords) (arg2 : Memref sig .tc .vmem S512x2 .f32) (harg2 : arg2.IsWhole) (arg3 : Memref sig .tc .vmem S512x2 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x1 .f32) (harg6 : arg6.IsWhole) (arg7 : Memref sig .tc .vmem S1x1 .f32) (harg7 : arg7.IsWhole) (hc : atStart i)
    (x0 : Vec F S512x2 .f32) (x1 : Vec F S512x2 .f32) (x2 : Vec F S512x8 .f32) (x3 : Vec F S512x8 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Pair

end
-- ==== Proof.Ideal.RunLater.lean ====
/-
  The body at every later grid point, on any whole memrefs: the accumulator holds the running total the point
  before left; the tile's weighted sum is added to it and the result copied to the output's buffer.
-/
import proofs.«169935_j73100343378533_1_alg».proof.Proof.Ideal.RunStart

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body away from the first point: inputs kept, output and accumulator left as the stores' pieces. -/
noncomputable def runLater (c : Dev nD) (i : grid0.Coords) (arg2 : Memref sig .tc .vmem S512x2 .f32) (harg2 : arg2.IsWhole) (arg3 : Memref sig .tc .vmem S512x2 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x1 .f32) (harg6 : arg6.IsWhole) (arg7 : Memref sig .tc .vmem S1x1 .f32) (harg7 : arg7.IsWhole) (hc : ¬atStart i)
    (x0 : Vec F S512x2 .f32) (x1 : Vec F S512x2 .f32) (x2 : Vec F S512x8 .f32) (x3 : Vec F S512x8 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Pair

end
-- ==== Proof.Ideal.Totals.lean ====
/-
  The running total. After grid point t the accumulator and the output's staging buffer both hold the sum of the
  tiles' weighted sums over the points up to t: the first point starts from a cleared accumulator, every later point
  adds its tile to what the point before left. This module names those contents by recursion on the point, states
  the region's invariant and proof data over them (the two windows that read one array each hold half of it), and
  proves the body's obligation at a symbolic point from the two runs.
-/
import proofs.«169935_j73100343378533_1_alg».proof.Proof.Ideal.RunLater

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves -/

/-- At the first point the stores into the output's buffer cover it. -/
theorem coverOutStart (c : Dev nD) (t : Fin cfg0.N) (hc : atStart (grid0.coords t)) (y : S1x1.Idx) :
    ∃ pc ∈ (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).1, y ∈ pc.1.set :=
  View.cover_of_tiledL (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).1 S1x1.size (by sl_kernel_rfl) y
/-- What the first point leaves in the output's buffer. -/
def outStart (c : Dev nD) (t : Fin cfg0.N) (hc : atStart (grid0.coords t)) : Vec F S1x1 .f32 :=
  outView.read (Elt F) (outView.writes (Elt F) outView.junk (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).1)
/-- At the first point the stores into the accumulator cover it. -/
theorem coverAccStart (c : Dev nD) (t : Fin cfg0.N) (hc : atStart (grid0.coords t)) (y : S1x1.Idx) :
    ∃ pc ∈ (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).2.1, y ∈ pc.1.set :=
  View.cover_of_tiledL (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).2.1 S1x1.size (by sl_kernel_rfl) y
/-- What the first point leaves in the accumulator. -/
def accStart (c : Dev nD) (t : Fin cfg0.N) (hc : atStart (grid0.coords t)) : Vec F S1x1 .f32 :=
  accView.read (Elt F) (accView.writes (Elt F) accView.junk (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).2.1)

/-- At a later point the stores into the output's buffer cover it. -/
theorem coverOutLater (c : Dev nD) (t : Fin cfg0.N) (hc : ¬atStart (grid0.coords t)) (xs : Vec F S1x1 .f32) (y : S1x1.Idx) :
    ∃ pc ∈ (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).1, y ∈ pc.1.set :=
  View.cover_of_tiledL (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).1 S1x1.size (by sl_kernel_rfl) y
/-- What a later point leaves in the output's buffer, the accumulator having held `xs`. -/
def outLater (c : Dev nD) (t : Fin cfg0.N) (hc : ¬atStart (grid0.coords t)) (xs : Vec F S1x1 .f32) : Vec F S1x1 .f32 :=
  outView.read (Elt F) (outView.writes (Elt F) outView.junk (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).1)
/-- At a later point the stores into the accumulator cover it. -/
theorem coverAccLater (c : Dev nD) (t : Fin cfg0.N) (hc : ¬atStart (grid0.coords t)) (xs : Vec F S1x1 .f32) (y : S1x1.Idx) :
    ∃ pc ∈ (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).2.1, y ∈ pc.1.set :=
  View.cover_of_tiledL (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).2.1 S1x1.size (by sl_kernel_rfl) y
/-- What a later point leaves in the accumulator, which held `xs`. -/
def accLater (c : Dev nD) (t : Fin cfg0.N) (hc : ¬atStart (grid0.coords t)) (xs : Vec F S1x1 .f32) : Vec F S1x1 .f32 :=
  accView.read (Elt F) (accView.writes (Elt F) accView.junk (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).2.1)

/-! ## The running total, point by point -/

/-- After point `n`: the output's buffer and the accumulator (in that order). -/
def totals (c : Dev nD) : (n : ℕ) → n < cfg0.N → Vec F S1x1 .f32 × Vec F S1x1 .f32
  | 0, hn => (outStart m c ⟨0, hn⟩ ((atStart_iff ⟨0, hn⟩).mpr rfl), accStart m c ⟨0, hn⟩ ((atStart_iff ⟨0, hn⟩).mpr rfl))
  | n + 1, hn =>
    (outLater m c ⟨n + 1, hn⟩ (fun h => Nat.succ_ne_zero n ((atStart_iff ⟨n + 1, hn⟩).mp h)) (totals c n (Nat.lt_of_succ_lt hn)).2,
     accLater m c ⟨n + 1, hn⟩ (fun h => Nat.succ_ne_zero n ((atStart_iff ⟨n + 1, hn⟩).mp h)) (totals c n (Nat.lt_of_succ_lt hn)).2)

theorem totals_start (c : Dev nD) (t : Fin cfg0.N) (h0 : t.val = 0) :
    totals m c t.val t.isLt = (outStart m c t ((atStart_iff t).mpr h0), accStart m c t ((atStart_iff t).mpr h0)) := by
  obtain ⟨n, hn⟩ := t
  cases n with
  | zero => rfl
  | succ n => exact absurd h0 (Nat.succ_ne_zero n)

theorem totals_later (c : Dev nD) (t : Fin cfg0.N) (h0 : t.val ≠ 0) :
    totals m c t.val t.isLt
      = (outLater m c t (fun h => h0 ((atStart_iff t).mp h)) (totals m c (t.val - 1) (Nat.lt_of_le_of_lt (Nat.sub_le _ _) t.isLt)).2,
         accLater m c t (fun h => h0 ((atStart_iff t).mp h)) (totals m c (t.val - 1) (Nat.lt_of_le_of_lt (Nat.sub_le _ _) t.isLt)).2) := by
  obtain ⟨n, hn⟩ := t
  cases n with
  | zero => exact absurd rfl h0
  | succ n => rfl

/-! ## The invariant between points -/

/-- Before the first point the accumulator holds anything; after point `n` it holds that point's total. -/
def PhiS (c : Dev nD) : (n : ℕ) → n ≤ cfg0.N → sProp 𝕄
  | 0, _ => Pipeline.ΦA spec0 c
  | n + 1, hn => iprop(iprop(owns (c : Thread nD τ) accMem fullShare ((totals m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accMem fullShare ((totals m c n hn).2)) ∗ (∃ r, prngReg c r)) := rfl
theorem PhiS_pos (c : Dev nD) (n : ℕ) (h : n ≤ cfg0.N) (hz : n ≠ 0) :
    PhiS m c n h = iprop(iprop(owns (c : Thread nD τ) accMem fullShare ((totals m c (n - 1) (by omega)).2)) ∗ (∃ r, prngReg c r)) := by
  cases n with
  | zero => exact absurd rfl hz
  | succ n => rfl

/-! ## The proof data -/

/-- Per core: the arrays as the region finds them; after the body every input's buffer still at its block and the
    output's at the running total; the invariant above; nothing owed. Windows 0 and 1 read the points array and
    windows 2 and 3 the outputs array: each pair splits its array's share in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (totals m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (totals m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation at a symbolic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; at the first point the accumulator is handed over at
    anything and at a later point at the total the point before left; the run of the matching case applies, and the
    two written buffers are taken back at this point's total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · rw [totals_start m c t hz]
    unfold outStart accStart; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runStart c (grid0.coords t) _ _ _ _ _ _ _ _ _ _ _ _ ((atStart_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverAccStart m c t _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutStart m c t _)
  · rw [totals_later m c t hz]
    unfold outLater accLater; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((atStart_iff t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverAccLater m c t _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutLater m c t _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back, its contents forgotten. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

end Cert.KernelIdeal.Pair

end
-- ==== Proof.Ideal.Payloads.lean ====
/-
  What one grid point leaves, as arithmetic. Both written buffers end holding the body's one payload: the previous
  accumulator plus the sum over the 512 x 512 tile of weight times distance, computed from the point's four blocks of
  rows; at the first point the previous accumulator is the cleared one. At any float instance.
-/
import proofs.«169935_j73100343378533_1_alg».proof.Proof.Ideal.Totals
import Idealize.ShloMosaic.Lib.Pipeline.Value

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeroOff2 : (![0, 0] : Fin 2 → Nat) = fun _ => 0 := by funext a; fin_cases a <;> rfl

/-- The tile's contribution added to a previous accumulator `prev`: the body's payload at point `t`. -/
def step (c : Dev nD) (t : Fin cfg0.N) (prev : Vec F S1x1 .f32) : Vec F S1x1 .f32 :=
  k0_pay1 (k0_pay3 (grid0.coords t) (iblk m c 0 t) (iblk m c 1 t)) (iblk m c 2 t) (iblk m c 3 t) prev

theorem accStart_eq (c : Dev nD) (t : Fin cfg0.N) (hc : atStart (grid0.coords t)) :
    accStart m c t hc = step m c t (k0_pay2 (F := F)) := by
  unfold accStart step
  rw [View.read_writes_eq_canon _ _ _ (coverAccStart m c t hc)]
  unfold runStart; dsimp only
  sl_unfold_words
  rw [View.canon_cons_unit_zero zeroOff2, View.readCov_unit_zero _ zeroOff2]
  simp only [View.readAt_eq_ld, Memref.IsWhole.read_unread, View.ld_unit_zero (S := S512x2) zeroOff2, View.ld_unit_zero (S := S512x8) zeroOff2, View.ld_unit_zero (S := S1x1) zeroOff2]

theorem outStart_eq (c : Dev nD) (t : Fin cfg0.N) (hc : atStart (grid0.coords t)) :
    outStart m c t hc = step m c t (k0_pay2 (F := F)) := by
  unfold outStart step
  rw [View.read_writes_eq_canon _ _ _ (coverOutStart m c t hc)]
  unfold runStart; dsimp only
  sl_unfold_words
  rw [View.canon_unit_zero zeroOff2, View.readCov_cons_toLoadRect, View.readCov_unit_zero _ zeroOff2]
  simp only [View.readAt_eq_ld, Memref.IsWhole.read_unread, View.ld_unit_zero (S := S512x2) zeroOff2, View.ld_unit_zero (S := S512x8) zeroOff2, View.ld_unit_zero (S := S1x1) zeroOff2]

theorem accLater_eq (c : Dev nD) (t : Fin cfg0.N) (hc : ¬atStart (grid0.coords t)) (xs : Vec F S1x1 .f32) :
    accLater m c t hc xs = step m c t xs := by
  unfold accLater step
  rw [View.read_writes_eq_canon _ _ _ (coverAccLater m c t hc xs)]
  unfold runLater; dsimp only
  sl_unfold_words
  rw [View.canon_unit_zero zeroOff2]
  simp only [View.readAt_eq_ld, Memref.IsWhole.read_unread, View.ld_unit_zero (S := S512x2) zeroOff2, View.ld_unit_zero (S := S512x8) zeroOff2, View.ld_unit_zero (S := S1x1) zeroOff2]
  exact congrArg _ (Memref.IsWhole.read_unread _ xs)

theorem outLater_eq (c : Dev nD) (t : Fin cfg0.N) (hc : ¬atStart (grid0.coords t)) (xs : Vec F S1x1 .f32) :
    outLater m c t hc xs = step m c t xs := by
  unfold outLater step
  rw [View.read_writes_eq_canon _ _ _ (coverOutLater m c t hc xs)]
  unfold runLater; dsimp only
  sl_unfold_words
  rw [View.canon_unit_zero zeroOff2, View.readCov_unit_zero _ zeroOff2]
  simp only [View.readAt_eq_ld, Memref.IsWhole.read_unread, View.ld_unit_zero (S := S512x2) zeroOff2, View.ld_unit_zero (S := S512x8) zeroOff2, View.ld_unit_zero (S := S1x1) zeroOff2]
  exact congrArg _ (Memref.IsWhole.read_unread _ xs)

/-- After every point the output's buffer and the accumulator hold one and the same running total. -/
theorem totals_fst_eq_snd (c : Dev nD) (t : Fin cfg0.N) : (totals m c t.val t.isLt).1 = (totals m c t.val t.isLt).2 := by
  by_cases hz : t.val = 0
  · rw [totals_start m c t hz]; dsimp only; rw [outStart_eq, accStart_eq]
  · rw [totals_later m c t hz]; dsimp only; rw [outLater_eq, accLater_eq]

/-- The running total as a recursion on the point: the first point adds its tile to the cleared accumulator, each later
    point adds its tile to the total before it. -/
theorem total_zero (c : Dev nD) (t : Fin cfg0.N) (hz : t.val = 0) :
    (totals m c t.val t.isLt).2 = step m c t (k0_pay2 (F := F)) := by
  rw [totals_start m c t hz]; dsimp only; rw [accStart_eq]
theorem total_succ (c : Dev nD) (t : Fin cfg0.N) (hz : t.val ≠ 0) :
    (totals m c t.val t.isLt).2 = step m c t (totals m c (t.val - 1) (Nat.lt_of_le_of_lt (Nat.sub_le _ _) t.isLt)).2 := by
  rw [totals_later m c t hz]; dsimp only; rw [accLater_eq]

end Cert.KernelIdeal.Pair

end
-- ==== Proof.PairLoss.lean ====
/-
  The loss, index by index, and the laws that join its two spellings.

  For n points with d-dimensional rows X, the squared distance of rows a and b is |a|² + |b|² − 2 a·b floored at
  zero. The loss adds, over every ordered pair (a, b) with a ≠ b, the Gaussian weight exp(−D_P(a,b)/2) of the pair's
  distance in the first array times the Euclidean distance sqrt(D_O(a,b)) of the pair in the second, and scales the sum.
  One program computes the weight from the squared distance directly and takes the plain root; the other takes a
  guarded root first (zero where the squared distance is not positive), squares it back and halves its negation, and
  spells the off-diagonal mask as one minus the diagonal's indicator. On the extended reals these agree at EVERY
  value of the squared distance in [0, +∞] (the root of +∞ is +∞), so no finiteness is needed. The final scaling
  (c·t)/N against c·(t/N) is associativity of the product, N being a nonzero real.
-/
import Idealize.ShloMosaic.PureOps.Ideal
import Idealize.ShloMosaic.PureOps.Ideal.Laws
import Idealize.ShloMosaic.Lib.ValueIdx

noncomputable section

open scoped BigOperators

namespace PairLoss

open Idealize.ShloMosaic Idealize.ShloMosaic.ValueIdx

/-! ## The literal words -/

theorem word_zero : Ideal.ofBits .f32 0x00000000#32 = 0 := Ideal.ofBits_zero_f32
theorem word_one : Ideal.ofBits .f32 0x3F800000#32 = ((1 : ℝ) : EReal) := by
  simp [Ideal.ofBits, Ideal.ieee]
  rw [← EReal.coe_mul, ← EReal.coe_one]; norm_num
theorem word_two : Ideal.ofBits .f32 0x40000000#32 = ((2 : ℝ) : EReal) := by
  simp [Ideal.ofBits, Ideal.ieee]
  rw [← EReal.coe_mul]; norm_num
theorem word_neg_half : Ideal.ofBits .f32 0xBF000000#32 = ((-(1 / 2) : ℝ) : EReal) := by
  simp [Ideal.ofBits, Ideal.ieee]
  rw [← EReal.coe_mul]; norm_num
theorem word_count : Ideal.ofBits .f32 0x4C7FF800#32 = ((67100672 : ℝ) : EReal) := by
  simp [Ideal.ofBits, Ideal.ieee]
  exact_mod_cast (by norm_num : (16775168 : ℝ) * 2 ^ 2 = 67100672)

/-! ## The terms -/

variable {n d e : ℕ}

/-- The squared distance of rows `a` and `b`, floored at zero. -/
def sqDist (X : (⟨2, ![n, d]⟩ : Shape).Idx → EReal) (a b : Fin n) : EReal :=
  max ((∑ k : Fin d, X (ix2 a k) * X (ix2 a k)) + (∑ k : Fin d, X (ix2 b k) * X (ix2 b k))
      - Ideal.ofBits .f32 0x40000000#32 * ∑ k : Fin d, X (ix2 a k) * X (ix2 b k)) (Ideal.ofBits .f32 0x00000000#32)

theorem sqDist_nonneg (X : (⟨2, ![n, d]⟩ : Shape).Idx → EReal) (a b : Fin n) : 0 ≤ sqDist X a b := by
  unfold sqDist; rw [word_zero]; exact le_max_right _ _

/-- One pair's contribution: weight from the first array, off the diagonal, times distance in the second. -/
def term (P : (⟨2, ![n, d]⟩ : Shape).Idx → EReal) (O : (⟨2, ![n, e]⟩ : Shape).Idx → EReal) (a b : Fin n) : EReal :=
  Ideal.exp (sqDist P a b * Ideal.ofBits .f32 0xBF000000#32)
      * (if a = b then Ideal.ofBits .f32 0x00000000#32 else Ideal.ofBits .f32 0x3F800000#32)
    * Ideal.sqrt (sqDist O a b)

/-- The guarded root: the root where the argument is positive, zero elsewhere. -/
def guardedRoot (x : EReal) : EReal :=
  Scalar.select (Ideal.cmp .ogt x (Ideal.ofBits .f32 0x00000000#32))
    (Ideal.sqrt (Scalar.select (Ideal.cmp .ogt x (Ideal.ofBits .f32 0x00000000#32)) x (Ideal.ofBits .f32 0x3F800000#32)))
    (Ideal.ofBits .f32 0x00000000#32)

/-! ## The laws -/

/-- On [0, +∞] the root squares back. -/
theorem sqrt_mul_self {x : EReal} (hx : 0 ≤ x) : Ideal.sqrt x * Ideal.sqrt x = x := by
  induction x using EReal.rec with
  | bot => exact absurd hx (by simp)
  | top => simp [EReal.top_mul_top]
  | coe r =>
    have hr : 0 ≤ r := by exact_mod_cast hx
    rw [Ideal.sqrt_coe, if_neg (not_lt.mpr hr), ← EReal.coe_mul, Real.mul_self_sqrt hr]

/-- On [0, +∞] the guarded root is the root. -/
theorem guardedRoot_eq {x : EReal} (hx : 0 ≤ x) : guardedRoot x = Ideal.sqrt x := by
  unfold guardedRoot
  rw [word_zero]
  by_cases hpos : 0 < x
  · have hc : Ideal.cmp .ogt x 0 = 1#1 := by simp [Ideal.cmp, hpos]
    rw [hc, ValueIdx.select_one, ValueIdx.select_one]
  · have hz : x = 0 := le_antisymm (not_lt.mp hpos) hx
    have hc : Ideal.cmp .ogt x 0 = 0#1 := by simp [Ideal.cmp, hpos]
    rw [hc, ValueIdx.select_zero, hz]
    simp [Ideal.sqrt_coe, ← EReal.coe_zero]

/-- Halving the negated square of the root is the product with minus one half. -/
theorem neg_sq_half {x : EReal} (hx : 0 ≤ x) :
    Ideal.div (-(guardedRoot x * guardedRoot x)) (Ideal.ofBits .f32 0x40000000#32) = x * Ideal.ofBits .f32 0xBF000000#32 := by
  rw [guardedRoot_eq hx, sqrt_mul_self hx, word_two, word_neg_half, Ideal.div_coe (by norm_num : (2 : ℝ) ≠ 0), neg_mul, ← mul_neg,
    ← EReal.coe_neg]

/-- One minus the diagonal's indicator is the off-diagonal mask. -/
theorem one_sub_indicator (p : Prop) [Decidable p] :
    Ideal.ofBits .f32 0x3F800000#32 - (((BitVec.ofBool (decide p)).toNat : ℝ) : EReal)
      = if p then Ideal.ofBits .f32 0x00000000#32 else Ideal.ofBits .f32 0x3F800000#32 := by
  rw [word_one, word_zero]
  by_cases hp : p
  · have h1 : (((BitVec.ofBool (decide p)).toNat : ℝ) : EReal) = ((1 : ℝ) : EReal) := by simp [hp]
    rw [h1, if_pos hp, ← EReal.coe_sub, sub_self, EReal.coe_zero]
  · have h0 : (((BitVec.ofBool (decide p)).toNat : ℝ) : EReal) = ((0 : ℝ) : EReal) := by simp [hp]
    rw [h0, if_neg hp, ← EReal.coe_sub, sub_zero]

/-- The pair's contribution in the guarded spelling is the same number. -/
theorem term_guarded (P : (⟨2, ![n, d]⟩ : Shape).Idx → EReal) (O : (⟨2, ![n, e]⟩ : Shape).Idx → EReal) (a b : Fin n) :
    Ideal.exp (Ideal.div (-(guardedRoot (sqDist P a b) * guardedRoot (sqDist P a b))) (Ideal.ofBits .f32 0x40000000#32))
        * (Ideal.ofBits .f32 0x3F800000#32 - (((BitVec.ofBool (decide (a = b))).toNat : ℝ) : EReal))
      * guardedRoot (sqDist O a b)
      = term P O a b := by
  unfold term
  rw [neg_sq_half (sqDist_nonneg P a b), one_sub_indicator, guardedRoot_eq (sqDist_nonneg O a b)]

/-- The final scaling: dividing the scaled sum by the pair count is scaling the divided sum. -/
theorem scale_div (c t : EReal) :
    Ideal.div (c * t) (Ideal.ofBits .f32 0x4C7FF800#32) = c * Ideal.div t (Ideal.ofBits .f32 0x4C7FF800#32) := by
  rw [word_count, Ideal.div_coe (by norm_num : (67100672 : ℝ) ≠ 0), Ideal.div_coe (by norm_num : (67100672 : ℝ) ≠ 0), mul_assoc]

end PairLoss

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«169935_j73100343378533_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibSumReshape.lean ====
/-
  Reshaping does not change a sum.

  Two shapes with as many elements index the same elements by row-major position, and that correspondence is a
  bijection between the two index sets. So the sum of a function over one index set equals the sum, over the other,
  of the function at the corresponding index; in particular an array and its reshape have the same sum. Only
  commutativity and associativity of the addition enter: the law holds in any commutative additive monoid, on the
  extended reals without any finiteness assumption.
-/
import Idealize.ShloMosaic.Lib.ValueIdx

noncomputable section

open scoped BigOperators

namespace SumReshape

open Idealize.ShloMosaic

/-- A sum over one shape's indices equals the sum, over the indices of another shape of as many elements, of the
    function at the index with the same row-major position. -/
theorem sum_reshape {β : Type*} [AddCommMonoid β] {s s' : Shape} (h : s'.numel = s.numel) (f : s.Idx → β) :
    ∑ j : s'.Idx, f (Shape.reshapeEquiv h j) = ∑ i, f i :=
  Equiv.sum_comp (Shape.reshapeEquiv h) f

/-- A reshaped array has the sum of the array it reshapes. -/
theorem sum_shapeCast {β : Type} [AddCommMonoid β] {s s' : Shape} (x : s.Idx → β) (h : s.ShapeCasts s') :
    ∑ j : s'.Idx, shapeCast s' x h j = ∑ i, x i :=
  sum_reshape h x

end SumReshape
-- ==== Proof.Value.Tile.lean ====
/-
  One tile's arithmetic, entry by entry, on the extended reals.

  At a grid point the body holds two blocks of 512 rows of each array. From the first array's blocks it forms, at
  entry (p, q), the Gaussian weight exp(−D/2) of the squared distance D between row p of one block and row q of the
  other, masked off where the two rows are the same row of the array; from the second array's blocks the distance
  sqrt(D'). It adds the 512 x 512 products weight times distance to the previous accumulator. This module reads both
  payloads at an entry: every row sum, keepdims cast, transpose, broadcast and matrix product becomes its sum over
  the row's coordinates.
-/
import proofs.«169935_j73100343378533_1_alg».proof.Proof.Gen.KernelIdeal.Skeleton
import proofs.«169935_j73100343378533_1_alg».proof.Proof.PairLoss
import proofs.«169935_j73100343378533_1_alg».proof.Proof.LibRowOps
import proofs.«169935_j73100343378533_1_alg».proof.Proof.LibDotRecord
import proofs.«169935_j73100343378533_1_alg».proof.Proof.LibSumReshape
import Idealize.ShloMosaic.Lib.ValueLayout
import Idealize.ShloMosaic.Lib.Pipeline.Value

set_option maxRecDepth 16384

noncomputable section

open scoped BigOperators

namespace Cert.KernelIdeal.PairValue

open Cert.KernelIdeal Cert.KernelIdeal.Gen Idealize.ShloMosaic Idealize.ShloMosaic.ValueIdx

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl
theorem cmpi_apply {s : Shape} {w : ℕ} (p : CmpIPredicate) (a b : IVec s w) (i : s.Idx) : cmpi p a b i = IntOp.cmpi p (a i) (b i) := rfl
theorem addi_apply {s : Shape} {w : ℕ} (a b : IVec s w) (i : s.Idx) : addi a b i = IntOp.addi (a i) (b i) := rfl

/-- A row's sum, with the accumulator's side condition spelt as the printed programs spell it (zero is zero). -/
theorem rowSum' {a b : ℕ} (v : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) :=
  Gcn.Lib.rowSum_apply v h hφ hacc r

/-- A sum over every axis but unit ones, likewise: the sum over every index of the operand. -/
theorem total' {s t : Shape} {axes : List (Fin s.rank)} (src : FVec Ideal s .f32) (h : s.Reduces axes t) (ht : ∀ b, t.size b = 1)
    (hφ : FKind.Formats .f32) (hacc : (0x00000000#32 : BitVec 32) = 0x00000000#32) (j : t.Idx) :
    multiReduction .add axes t src 0x00000000#32 h hφ hacc j = ∑ i : s.Idx, src i :=
  Ideal.multiReduction_add_total src 0x00000000#32 h ht hφ hacc j

/-- The squared distance of row p of one block of rows and row q of another, floored at zero. -/
def blkSqDist {d : ℕ} (v w : (⟨2, ![512, d]⟩ : Shape).Idx → EReal) (p q : Fin 512) : EReal :=
  max ((∑ k : Fin d, v (ix2 p k) * v (ix2 p k)) + (∑ k : Fin d, w (ix2 q k) * w (ix2 q k))
      - Ideal.ofBits .f32 0x40000000#32 * ∑ k : Fin d, v (ix2 p k) * w (ix2 q k)) (Ideal.ofBits .f32 0x00000000#32)

/-- The weight tile at entry (p, q): the Gaussian weight of the blocks' squared distance, times the mask that compares
    the two rows' positions in the array (block number times 512 plus the row's place in the block). -/
theorem weight_apply (i : grid0.Coords) (v5 v6 : Vec Ideal S512x2 .f32) (p q : Fin 512) :
    k0_pay3 (F := Ideal) i v5 v6 (ix2 p q)
      = Ideal.exp (blkSqDist v5 v6 p q * Ideal.ofBits .f32 0xBF000000#32)
          * Scalar.select (IntOp.cmpi .eq (IntOp.addi (Scalar.muli (BitVec.ofNat 32 (i 0).val) 512#32) (BitVec.ofNat 32 p.val))
                                          (IntOp.addi (Scalar.muli (BitVec.ofNat 32 (i 1).val) 512#32) (BitVec.ofNat 32 q.val)))
              (Ideal.ofBits .f32 0x00000000#32) (Ideal.ofBits .f32 0x3F800000#32) := by
  unfold k0_pay3 blkSqDist
  simp only [mulf_apply, sqrt_apply, addf_apply, subf_apply, maximumf_apply, broadcast_apply, select_apply, exp_apply, cmpi_apply, addi_apply,
    Gcn.Lib.broadcastTo_a1_ab_apply, Gcn.Lib.shapeCast_a_a1_apply, broadcastTo_1b_ab_apply,
    DotRecord.matmul_zero_apply dot_S512x2_S2x512_S512x512_1_0_0_1_n_n rfl rfl rfl rfl rfl rfl]
  rw [rowSum', transpose_ix2_apply, Gcn.Lib.shapeCast_a_a1_apply, rowSum', iota_single_apply, iota_single_apply]
  have hg : ∀ k : Fin 2, transpose S2x512 [1, 0] v6 transposes_S512x2_p1_0_S2x512 (ix2 k q) = v6 (ix2 q k) :=
    fun k => transpose_ix2_apply _ _ _ _
  simp only [mulf_apply, hg]
  rfl

/-- The whole tile summed: the reduction over both tile axes, read back through the unit-axis casts, is the double sum. -/
theorem sumAll (T : FVec Ideal S512x512 .f32) (hφ : FKind.Formats .f32) (hacc : (0x00000000#32 : BitVec 32) = 0x00000000#32) (j : S1x1.Idx) :
    broadcast S1x1 (extractAt ![0, 0, 0] (shapeCast S1x1x1 (multiReduction .add [1, 2] S1 (shapeCast S1x512x512 T shapeCasts_S512x512_S1x512x512)
        0x00000000#32 reduces_S1x512x512_S1 hφ hacc) shapeCasts_S1_S1x1x1) inpos_S1x1x1_p0_0_0) j
      = ∑ p : Fin 512, ∑ q : Fin 512, T (ix2 p q) := by
  refine (broadcast_apply _ j).trans ?_
  unfold extractAt
  have hk : ((S1.rowMajor (ix1 (0 : Fin 1))).val : ℕ)
      = (S1x1x1.rowMajor (fun a => (⟨(![0, 0, 0] : Fin 3 → ℕ) a, inpos_S1x1x1_p0_0_0 a⟩ : Fin (S1x1x1.size a)))).val := by
    have h1 := (S1.rowMajor (ix1 (0 : Fin 1))).isLt
    have h2 := (S1x1x1.rowMajor (fun a => (⟨(![0, 0, 0] : Fin 3 → ℕ) a, inpos_S1x1x1_p0_0_0 a⟩ : Fin (S1x1x1.size a)))).isLt
    have e1 : S1.numel = 1 := by decide
    have e2 : S1x1x1.numel = 1 := by decide
    omega
  refine (shapeCast_apply _ shapeCasts_S1_S1x1x1 _ (ix1 (0 : Fin 1)) hk).trans ?_
  refine (total' _ reduces_S1x512x512_S1 (by decide) hφ hacc _).trans ?_
  rw [SumReshape.sum_shapeCast, sum_idx2]

/-- The accumulator after the tile: what it held plus the sum over the tile of weight times distance. -/
theorem tile_apply (v39 : FVec Ideal S512x512 .f32) (v40 v41 : Vec Ideal S512x8 .f32) (v66 : Vec Ideal S1x1 .f32) (j : S1x1.Idx) :
    k0_pay1 (F := Ideal) v39 v40 v41 v66 j
      = v66 j + ∑ p : Fin 512, ∑ q : Fin 512, v39 (ix2 p q) * Ideal.sqrt (blkSqDist v40 v41 p q) := by
  unfold k0_pay1
  refine (congrFun (shapeCast_self _ _) j).trans ?_
  refine (addf_apply _ _ _).trans ?_
  refine congrArg (v66 j + ·) ?_
  refine (sumAll _ _ _ j).trans ?_
  refine Finset.sum_congr rfl fun p _ => Finset.sum_congr rfl fun q _ => ?_
  unfold blkSqDist
  simp only [mulf_apply, sqrt_apply, addf_apply, subf_apply, maximumf_apply, broadcast_apply, select_apply, exp_apply, cmpi_apply, addi_apply,
    Gcn.Lib.broadcastTo_a1_ab_apply, Gcn.Lib.shapeCast_a_a1_apply, broadcastTo_1b_ab_apply,
    DotRecord.matmul_zero_apply dot_S512x8_S8x512_S512x512_1_0_0_1_n_n rfl rfl rfl rfl rfl rfl]
  rw [rowSum', transpose_ix2_apply, Gcn.Lib.shapeCast_a_a1_apply, rowSum']
  have hg : ∀ k : Fin 8, transpose S8x512 [1, 0] v41 transposes_S512x8_p1_0_S8x512 (ix2 k q) = v41 (ix2 q k) :=
    fun k => transpose_ix2_apply _ _ _ _
  simp only [mulf_apply, hg]
  rfl

end Cert.KernelIdeal.PairValue

end
-- ==== Proof.Value.Rows.lean ====
/-
  From blocks to rows. Grid point t = (i, j) stages rows 512 i + p of each array in the first window of the pair and
  rows 512 j + q in the second, so the tile's entry (p, q) is the pair of rows (512 i + p, 512 j + q) of the arrays. The
  body's mask compares exactly those two row numbers (as 32-bit words, far from overflow). Hence one grid point adds to
  the accumulator the double sum, over its 512 x 512 pairs of rows, of the loss's term.
-/
import proofs.«169935_j73100343378533_1_alg».proof.Proof.Ideal.Payloads
import proofs.«169935_j73100343378533_1_alg».proof.Proof.Value.Tile

set_option maxRecDepth 16384

noncomputable section

open scoped BigOperators

namespace Cert.KernelIdeal.PairValue

open Cert.KernelIdeal Cert.KernelIdeal.Gen Idealize.ShloMosaic Idealize.ShloMosaic.ValueIdx

open Cert.KernelIdeal.Pair

variable (m : (ℓ : Loc nD τ sig) → Buf (Elt Ideal) ℓ)

/-- The windows' block indices over the grid: the first window of each pair follows the first coordinate, the second the
    second; all blocks start at column zero. -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = 0
    ∧ win0_3.index t (0 : Fin 2) = (grid0.coords t 1).val ∧ win0_3.index t (1 : Fin 2) = 0 :=
  (by decide +kernel : ∀ t : Fin grid0.N, _)

/-- The two coordinates of a grid point, as numbers below 16. -/
def gi (t : Fin cfg0.N) : Fin 16 := ⟨(grid0.coords t 0).val, (grid0.coords t 0).isLt⟩
def gj (t : Fin cfg0.N) : Fin 16 := ⟨(grid0.coords t 1).val, (grid0.coords t 1).isLt⟩

/-- Row p of block i is row 512 i + p of the array. -/
def rowOf (i : Fin 16) (p : Fin 512) : Fin 8192 := ⟨i.val * 512 + p.val, by have := i.isLt; have := p.isLt; omega⟩

theorem iblk0_apply (c : Dev nD) (t : Fin cfg0.N) (p : Fin 512) (k : Fin 2) :
    iblk m c 0 t (ix2 p k) = V m c main_arg0 (ix2 (rowOf (gi t) p) k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = (grid0.coords t 0).val * 512 + p.val; omega
  | ⟨1, _⟩ => show win0_0.index t (1 : Fin 2) * 2 + 1 * k.val = k.val; omega

theorem iblk1_apply (c : Dev nD) (t : Fin cfg0.N) (p : Fin 512) (k : Fin 2) :
    iblk m c 1 t (ix2 p k) = V m c main_arg0 (ix2 (rowOf (gj t) p) k) := by
  obtain ⟨-, -, e0, e1, -⟩ := idx_facts t
  show V m c main_arg0 (((cfg0.win 1).blk t).view.emb (ix2 p k)) = _
  refine congrArg (V m c main_arg0) (funext fun a => Fin.ext ?_)
  match a with
  | ⟨0, _⟩ => show win0_1.index t (0 : Fin 2) * 512 + 1 * p.val = (grid0.coords t 1).val * 512 + p.val; omega
  | ⟨1, _⟩ => show win0_1.index t (1 : Fin 2) * 2 + 1 * k.val = k.val; omega

theorem iblk2_apply (c : Dev nD) (t : Fin cfg0.N) (p : Fin 512) (k : Fin 8) :
    iblk m c 2 t (ix2 p k) = V m c main_arg1 (ix2 (rowOf (gi t) p) k) := by
  obtain ⟨-, -, -, -, e0, e1, -⟩ := idx_facts t
  show V m c main_arg1 (((cfg0.win 2).blk t).view.emb (ix2 p k)) = _
  refine congrArg (V m c main_arg1) (funext fun a => Fin.ext ?_)
  match a with
  | ⟨0, _⟩ => show win0_2.index t (0 : Fin 2) * 512 + 1 * p.val = (grid0.coords t 0).val * 512 + p.val; omega
  | ⟨1, _⟩ => show win0_2.index t (1 : Fin 2) * 8 + 1 * k.val = k.val; omega

theorem iblk3_apply (c : Dev nD) (t : Fin cfg0.N) (p : Fin 512) (k : Fin 8) :
    iblk m c 3 t (ix2 p k) = V m c main_arg1 (ix2 (rowOf (gj t) p) k) := by
  obtain ⟨-, -, -, -, -, -, e0, e1⟩ := idx_facts t
  show V m c main_arg1 (((cfg0.win 3).blk t).view.emb (ix2 p k)) = _
  refine congrArg (V m c main_arg1) (funext fun a => Fin.ext ?_)
  match a with
  | ⟨0, _⟩ => show win0_3.index t (0 : Fin 2) * 512 + 1 * p.val = (grid0.coords t 1).val * 512 + p.val; omega
  | ⟨1, _⟩ => show win0_3.index t (1 : Fin 2) * 8 + 1 * k.val = k.val; omega

/-- The blocks' squared distances are the arrays' squared distances at the rows the blocks hold. -/
theorem blkSqDist_points (c : Dev nD) (t : Fin cfg0.N) (p q : Fin 512) :
    blkSqDist (iblk m c 0 t) (iblk m c 1 t) p q = PairLoss.sqDist (V m c main_arg0) (rowOf (gi t) p) (rowOf (gj t) q) := by
  unfold blkSqDist PairLoss.sqDist
  have h0 : ∀ (p : Fin 512) (k : Fin 2), iblk m c 0 t (ix2 p k) = V m c main_arg0 (ix2 (rowOf (gi t) p) k) := iblk0_apply m c t
  have h1 : ∀ (p : Fin 512) (k : Fin 2), iblk m c 1 t (ix2 p k) = V m c main_arg0 (ix2 (rowOf (gj t) p) k) := iblk1_apply m c t
  simp only [h0, h1]

theorem blkSqDist_outputs (c : Dev nD) (t : Fin cfg0.N) (p q : Fin 512) :
    blkSqDist (iblk m c 2 t) (iblk m c 3 t) p q = PairLoss.sqDist (V m c main_arg1) (rowOf (gi t) p) (rowOf (gj t) q) := by
  unfold blkSqDist PairLoss.sqDist
  have h2 : ∀ (p : Fin 512) (k : Fin 8), iblk m c 2 t (ix2 p k) = V m c main_arg1 (ix2 (rowOf (gi t) p) k) := iblk2_apply m c t
  have h3 : ∀ (p : Fin 512) (k : Fin 8), iblk m c 3 t (ix2 p k) = V m c main_arg1 (ix2 (rowOf (gj t) p) k) := iblk3_apply m c t
  simp only [h2, h3]

/-! ## The mask -/

/-- Block number times 512 plus the place in the block, as a 32-bit word, is the row number's word. -/
theorem word_row (i : Fin 16) (p : Fin 512) :
    IntOp.addi (Scalar.muli (BitVec.ofNat 32 i.val) 512#32) (BitVec.ofNat 32 p.val) = BitVec.ofNat 32 (rowOf i p).val := by
  apply BitVec.eq_of_toNat_eq
  have hi := i.isLt; have hp := p.isLt
  simp only [IntOp.addi, Scalar.muli, IntOp.muli, rowOf, BitVec.toNat_add, BitVec.toNat_mul, BitVec.toNat_ofNat, Nat.reducePow]
  omega

/-- Two row numbers' words are equal exactly when the rows are. -/
theorem word_eq_iff (a b : Fin 8192) : BitVec.ofNat 32 a.val = BitVec.ofNat 32 b.val ↔ a = b := by
  constructor
  · intro h
    have h' := congrArg BitVec.toNat h
    simp only [BitVec.toNat_ofNat, Nat.reducePow] at h'
    have ha := a.isLt; have hb := b.isLt
    exact Fin.ext (by omega)
  · intro h; rw [h]

/-- A selection on the equality bit of two words is the choice on their equality. -/
theorem select_cmpi_eq {α : Type} (x y : BitVec 32) (A B : α) :
    Scalar.select (IntOp.cmpi .eq x y) A B = if x = y then A else B := by
  by_cases h : x = y
  · rw [if_pos h, h]
    have : IntOp.cmpi .eq y y = 1#1 := by simp [IntOp.cmpi]
    rw [this, ValueIdx.select_one]
  · rw [if_neg h]
    have : IntOp.cmpi .eq x y = 0#1 := by simp [IntOp.cmpi, beq_eq_false_iff_ne.mpr h]
    rw [this, ValueIdx.select_zero]

/-- The body's mask at entry (p, q) of tile (i, j): off where the two rows are one row of the array. -/
theorem mask_eq (i j : Fin 16) (p q : Fin 512) (A B : EReal) :
    Scalar.select (IntOp.cmpi .eq (IntOp.addi (Scalar.muli (BitVec.ofNat 32 i.val) 512#32) (BitVec.ofNat 32 p.val))
        (IntOp.addi (Scalar.muli (BitVec.ofNat 32 j.val) 512#32) (BitVec.ofNat 32 q.val))) A B
      = if rowOf i p = rowOf j q then A else B := by
  rw [word_row, word_row, select_cmpi_eq]
  exact if_congr (word_eq_iff _ _) rfl rfl

/-! ## One grid point -/

/-- What grid point t adds: the loss's terms over the pairs (row of block i, row of block j). -/
def pointSum (c : Dev nD) (t : Fin cfg0.N) : EReal :=
  ∑ p : Fin 512, ∑ q : Fin 512, PairLoss.term (V m c main_arg0) (V m c main_arg1) (rowOf (gi t) p) (rowOf (gj t) q)

theorem step_apply (c : Dev nD) (t : Fin cfg0.N) (prev : Vec Ideal S1x1 .f32) (j : S1x1.Idx) :
    step m c t prev j = prev j + pointSum m c t := by
  unfold step pointSum
  rw [tile_apply]
  refine congrArg (prev j + ·) (Finset.sum_congr rfl fun p _ => Finset.sum_congr rfl fun q _ => ?_)
  rw [weight_apply, blkSqDist_points, blkSqDist_outputs]
  unfold PairLoss.term
  refine congrArg (· * Ideal.sqrt (PairLoss.sqDist (V m c main_arg1) (rowOf (gi t) p) (rowOf (gj t) q))) ?_
  refine congrArg (Ideal.exp (PairLoss.sqDist (V m c main_arg0) (rowOf (gi t) p) (rowOf (gj t) q) * Ideal.ofBits .f32 0xBF000000#32) * ·) ?_
  exact mask_eq (gi t) (gj t) p q _ _

end Cert.KernelIdeal.PairValue

end
-- ==== Proof.Ideal.Halves.lean ====
/-
  One array, two readers. Windows 0 and 1 both read the points array and windows 2 and 3 the outputs array, so the
  region cannot hold each window's array outright: each pair splits its array's full share into its two halves.
  This module states that split as an equation and reads the pipeline's five arrays against the three buffers behind
  them: whenever the paired windows see one contents, "the five arrays at their shares" IS "the three buffers whole".
-/
import proofs.«169935_j73100343378533_1_alg».proof.Proof.Ideal.Totals

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef)

/-- A whole buffer at the full share is its two halves at the same contents. -/
theorem halves {ℓ : Loc nD τ sig} (f : Buf (Elt F) ℓ) :
    ((ℓ ↦{fullShare} f : sProp 𝕄)) = iprop((ℓ ↦{fullShare.left} f) ∗ ℓ ↦{fullShare.right} f) :=
  equiv_iff.mp ⟨(pointsTo_share (PosShare.mem_left_op_right fullShare)).mp, (pointsTo_share (PosShare.mem_left_op_right fullShare)).mpr⟩

/-- Five conjuncts regrouped as two pairs and a single. -/
theorem regroup (A B C D E : sProp 𝕄) : iprop(A ∗ B ∗ C ∗ D ∗ E) = iprop((A ∗ B) ∗ (C ∗ D) ∗ E) := by
  have h1 : iprop(A ∗ B ∗ C ∗ D ∗ E) ⊢ iprop((A ∗ B) ∗ (C ∗ D) ∗ E) := by
    iintro ⟨HA, HB, HC, HD, HE⟩
    isplitl [HA HB]
    · isplitl [HA]; · iexact HA
      iexact HB
    isplitl [HC HD]
    · isplitl [HC]; · iexact HC
      iexact HD
    iexact HE
  have h2 : iprop((A ∗ B) ∗ (C ∗ D) ∗ E) ⊢ iprop(A ∗ B ∗ C ∗ D ∗ E) := by
    iintro ⟨⟨HA, HB⟩, ⟨HC, HD⟩, HE⟩
    isplitl [HA]; · iexact HA
    isplitl [HB]; · iexact HB
    isplitl [HC]; · iexact HC
    isplitl [HD]; · iexact HD
    iexact HE
  exact equiv_iff.mp ⟨h1, h2⟩

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The five windows' arrays, one by one: left and right halves of the two input arrays, the result cell whole. -/
theorem arrays_chain (c : Dev nD) (G : (w : Fin cfg0.W) → Buf (Elt F) ((cfg0.win w).arr.view.loc (c.tc : Thread nD τ))) :
    ((dats m 0 c).arrays G : sProp 𝕄) = iprop(
        (((c.tc : Thread nD τ).loc main_arg0) ↦{fullShare.left} G 0) ∗ (((c.tc : Thread nD τ).loc main_arg0) ↦{fullShare.right} G 1)
      ∗ (((c.tc : Thread nD τ).loc main_arg1) ↦{fullShare.left} G 2) ∗ (((c.tc : Thread nD τ).loc main_arg1) ↦{fullShare.right} G 3)
      ∗ (((c.tc : Thread nD τ).loc main_v0) ↦{fullShare} G 4)) := by
  unfold Dat.arrays
  rw [bigSep_W0, share0, share1, share2, share3, share4]
  simp only [Memref.IsWhole.set_eq_univ (arr_whole0 0), Memref.IsWhole.set_eq_univ (arr_whole0 1), Memref.IsWhole.set_eq_univ (arr_whole0 2),
    Memref.IsWhole.set_eq_univ (arr_whole0 3), Memref.IsWhole.set_eq_univ (arr_whole0 4)]

/-- The three buffers behind the arrays, one by one. -/
theorem bufs_chain (c : Dev nD) (Wv : (b : Ref sig .tc) → Buf (Elt F) ((c.tc : Thread nD τ).loc b)) :
    (arrBufs spec0 c Wv : sProp 𝕄) = iprop(
        (((c.tc : Thread nD τ).loc main_arg0) ↦{fullShare} Wv main_arg0)
      ∗ (((c.tc : Thread nD τ).loc main_arg1) ↦{fullShare} Wv main_arg1)
      ∗ (((c.tc : Thread nD τ).loc main_v0) ↦{fullShare} Wv main_v0)) := by
  unfold Pipeline.arrBufs
  rw [bigSep_eq_bigSepL_of_eq [main_arg0, main_arg1, main_v0] (by decide) (by decide)]
  rfl

/-- When windows 0 and 1 see the points array's contents, windows 2 and 3 the outputs array's and window 4 the result
    cell's, the five arrays at their shares are the three buffers held whole. -/
theorem arrays_eq_bufs (c : Dev nD) (Wv : (b : Ref sig .tc) → Buf (Elt F) ((c.tc : Thread nD τ).loc b))
    (G : (w : Fin cfg0.W) → Buf (Elt F) ((cfg0.win w).arr.view.loc (c.tc : Thread nD τ)))
    (h0 : G 0 = Wv main_arg0) (h1 : G 1 = Wv main_arg0) (h2 : G 2 = Wv main_arg1) (h3 : G 3 = Wv main_arg1) (h4 : G 4 = Wv main_v0) :
    ((dats m 0 c).arrays G : sProp 𝕄) = arrBufs spec0 c Wv := by
  rw [arrays_chain, bufs_chain, h0, h1, h2, h3, h4, halves (Wv main_arg0), halves (Wv main_arg1)]
  exact regroup (F := F) _ _ _ _ _

end Cert.KernelIdeal.Pair

end
-- ==== Proof.Ideal.Launch.lean ====
/-
  The launch. The region runs the body at the 256 grid points and the five scalar host lines follow it. The
  library's launch theorem for windows that share arrays asks for three things the proof supplies here: how the three
  buffers behind the arrays, held whole at entry, make the five windows' arrays at their shares (each input array
  split in halves between its two readers); that the host lines, which touch only the result cell and the five scalar
  buffers, run from the arrays' final contents (the halves put together again for their run and split afterwards);
  and the reading of every buffer's final contents. The conclusion: every weakly fair execution of @main ends with
  each window's array at what the proof data computes and every other unscoped buffer at what the five lines leave.
-/
import proofs.«169935_j73100343378533_1_alg».proof.Proof.Ideal.Halves

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef unscopedRest unscopedRestP restRefs restRefsP ucRefs)

/-! ## What the buffers hold at the region's exit and after the lines -/

/-- At the region's exit: the result cell at the final running total, every other buffer as at entry. -/
def exitVal (c : Dev nD) : Valuation τ sig (Elt F) :=
  Function.update (V0 m c) (Proc.devRef .tc main_v0) ((dats m 0 c).arrAt 4 cfg0.N)

/-- After the five host lines, read at a TensorCore reference. -/
def finalVal (c : Dev nD) (b : Ref sig .tc) : Buf (Elt F) ((c.tc : Thread nD τ).loc b) :=
  StableHlo.after hostOps1 (exitVal m c) (Proc.devRef .tc b)

theorem exitVal_out (c : Dev nD) : exitVal m c (Proc.devRef .tc main_v0) = (dats m 0 c).arrAt 4 cfg0.N := by
  unfold exitVal; exact Function.update_self _ _ _

theorem exitVal_of_ne (c : Dev nD) (b : Ref sig .tc) (hb : b ≠ main_v0) : exitVal m c (Proc.devRef .tc b) = V m c b := by
  unfold exitVal
  exact Function.update_of_ne (fun e => hb (Proc.devRef_injective _ e)) _ _

/-- An input window's array is never written: at every point it holds the entry contents. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_arg1 := ((dats m 0 c).arrAt_in 2 rfl n).trans (A_eq m c 2)
theorem arrAt_in3 (c : Dev nD) (n : ℕ) : (dats m 0 c).arrAt 3 n = V m c main_arg1 := ((dats m 0 c).arrAt_in 3 rfl n).trans (A_eq m c 3)

/-- The five lines write neither argument array nor the result cell. -/
theorem finalVal_arg0 (c : Dev nD) : finalVal m c main_arg0 = V m c main_arg0 := by
  unfold finalVal hostOps1; after_results; exact exitVal_of_ne m c main_arg0 (by decide)
theorem finalVal_arg1 (c : Dev nD) : finalVal m c main_arg1 = V m c main_arg1 := by
  unfold finalVal hostOps1; after_results; exact exitVal_of_ne m c main_arg1 (by decide)
theorem finalVal_out (c : Dev nD) : finalVal m c main_v0 = (dats m 0 c).arrAt 4 cfg0.N := by
  unfold finalVal hostOps1; after_results; exact exitVal_out m c

/-- The bypassing buffers are not the result cell: at the exit they are as at entry. -/
theorem rest_exit (c : Dev nD) :
    (unscopedRest spec0 c (V m c) : sProp 𝕄) = unscopedRest spec0 c (fun b => exitVal m c (Proc.devRef .tc b)) := by
  unfold Pipeline.unscopedRest
  exact bigSep_congr fun b hb => by
    dsimp only
    rw [exitVal_of_ne m c b fun e => (Finset.mem_sdiff.mp hb).2 (Finset.mem_image.mpr ⟨4, Finset.mem_univ _, e ▸ rfl⟩)]

/-! ## The lines after the region -/

theorem tail_sub : ∀ ops ∈ ([hostOps1] : List (List (HloOp τ sig (Elt F)))), ∀ op ∈ ops, op.bufs ⊆ ucRefs τ sig := by
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- From the region's exit the five lines run, holding every unscoped buffer whole (the input arrays' halves joined
    for the run), and hand back the arrays at their final contents and the bypassing buffers at what the lines leave. -/
theorem tail (c : Dev nD) (Q' : PUnit → sProp 𝕄) :
    iprop((iprop((dats m 0 c).arrays ((dats m 0 c).arrAt · cfg0.N) ∗ unscopedRestP Pipeline.Prefetch.none spec0 c (finalVal m c)) -∗ Q' ⟨⟩)
        ∗ boundary (c.tc : Thread nD τ) ∗ (dats m 0 c).arrays ((dats m 0 c).arrAt · cfg0.N) ∗ unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hE : ((dats m 0 c).arrays ((dats m 0 c).arrAt · cfg0.N) : sProp 𝕄) = arrBufs spec0 c (fun b => exitVal m c (Proc.devRef .tc b)) :=
    arrays_eq_bufs m c _ _ ((arrAt_in0 m c _).trans (exitVal_of_ne m c main_arg0 (by decide)).symm)
      ((arrAt_in1 m c _).trans (exitVal_of_ne m c main_arg0 (by decide)).symm)
      ((arrAt_in2 m c _).trans (exitVal_of_ne m c main_arg1 (by decide)).symm)
      ((arrAt_in3 m c _).trans (exitVal_of_ne m c main_arg1 (by decide)).symm) (exitVal_out m c).symm
  have hF : ((dats m 0 c).arrays ((dats m 0 c).arrAt · cfg0.N) : sProp 𝕄) = arrBufs spec0 c (finalVal m c) :=
    arrays_eq_bufs m c _ _ ((arrAt_in0 m c _).trans (finalVal_arg0 m c).symm) ((arrAt_in1 m c _).trans (finalVal_arg0 m c).symm)
      ((arrAt_in2 m c _).trans (finalVal_arg1 m c).symm) ((arrAt_in3 m c _).trans (finalVal_arg1 m c).symm) (finalVal_out m c).symm
  have hpre : iprop((dats m 0 c).arrays ((dats m 0 c).arrAt · cfg0.N) ∗ unscopedRestP Pipeline.Prefetch.none spec0 c (V m c))
      = (StableHlo.held (c.tc : Thread nD τ) (ucRefs τ sig) (exitVal m c) : sProp 𝕄) := by
    rw [Pipeline.unscopedRestP_none, rest_exit, hE, ← Pipeline.unscopedBufs_split₀ cfgs 0 winFacts₀0.arr_unscoped c,
      Pipeline.unscopedBufs_held (Ix := Unit) (Name := ℕ) (U := UR sig nD τ) (Lvl := ℕ) c (exitVal m c)]
  have hpost : iprop((dats m 0 c).arrays ((dats m 0 c).arrAt · cfg0.N) ∗ unscopedRestP Pipeline.Prefetch.none spec0 c (finalVal m c))
      = (StableHlo.held (c.tc : Thread nD τ) (ucRefs τ sig) (StableHlo.after ([hostOps1] : List (List (HloOp τ sig (Elt F)))).flatten (exitVal m c)) : sProp 𝕄) := by
    rw [Pipeline.unscopedRestP_none, hF, ← Pipeline.unscopedBufs_split₀ cfgs 0 winFacts₀0.arr_unscoped c,
      ← Pipeline.unscopedBufs_held (Ix := Unit) (Name := ℕ) (U := UR sig nD τ) (Lvl := ℕ) c]
    simp only [List.flatten_cons, List.flatten_nil, List.append_nil]
    rfl
  rw [hpost]
  rw [show iprop(boundary (c.tc : Thread nD τ) ∗ (dats m 0 c).arrays ((dats m 0 c).arrAt · cfg0.N) ∗ unscopedRestP Pipeline.Prefetch.none spec0 c (V m c))
      = iprop(boundary (c.tc : Thread nD τ) ∗ (StableHlo.held (c.tc : Thread nD τ) (ucRefs τ sig) (exitVal m c) : sProp 𝕄)) from by rw [hpre]]
  rw [show ([StableHlo.seq hostOps1] : List (Prog (TpuEff nD τ sig (Elt F) (Pipeline.Sig Λ₀ (Fin 1) fun p => ((cfgs p).toPCfg (Val := Elt F)).Adm) .tc) PUnit))
      = ([hostOps1] : List (List (HloOp τ sig (Elt F)))).map StableHlo.seq ++ [] from rfl]
  iintro ⟨Hk, Hb⟩
  iapply (Pipeline.wp_seqs_then (fun q => (cfgs q).toPCfg (Val := Elt F)) defs₀ Variants.none c (ucRefs τ sig) [] [hostOps1] (tail_sub) (tail_fresh) (exitVal m c)) $$ Hb
  iintro Hb
  rw [Pipeline.chain_nil, wp_pure]
  imodintro
  iapply Hk
  icases Hb with ⟨-, H⟩
  iexact H

/-! ## The run -/

set_option backward.isDefEq.respectTransparency.types false in
/-- From any memory with zero counters every weakly fair execution of @main terminates, each window's array ends at what
    the proof data computes (the argument arrays unchanged, the result cell at the last running total) and every other
    unscoped buffer at what the five lines leave. -/
theorem run_main : θ_run defs (onTc (τ := τ) (main (F := F))) (s₀ m ρ) (Pipeline.FramePost cfgs (dats m) 0 (finalVal m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_eq_bufs m c (V m c) _ (arrAt_in0 m c 0) (arrAt_in1 m c 0) (arrAt_in2 m c 0) (arrAt_in3 m c 0) (A_eq m c 4)).symm)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (finalVal m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail m c Q')
    (QY := fun c s => ∀ b ∈ restRefsP sig Pipeline.Prefetch.none spec0, s.mem ((c.tc : Thread nD τ).loc b) = finalVal m c b)
    (hY := fun c s' => by
      iintro ⟨-, HU, HSI⟩
      unfold Pipeline.unscopedRestP
      imodintro
      iapply (pointsTo_read_all (restRefsP sig Pipeline.Prefetch.none spec0) (fun b => (c.tc : Thread nD τ).loc b) (finalVal m c) s')
      isplitl [HU] <;> iassumption)
    (hQ := fun s h c => ⟨(h c).1, Pipeline.rest_of_restP Pipeline.Prefetch.none spec0 (fun k => k.elim0) c (finalVal m c) s (fun k => k.elim0) (h c).2.1 (h c).2.2⟩)

end Cert.KernelIdeal.Pair

end
-- ==== Proof.LibRunningSum.lean ====
/-
  A sum built one term at a time.

  Let `a 0 = p 0` and `a (n + 1) = a n + p (n + 1)` for the positions below `N`. Then `a n` is the sum of the first
  `n + 1` terms, and at the last position it is the sum of all `N` terms. Only the monoid laws of the addition are
  used, so the statement holds in any commutative additive monoid — on the extended reals without any finiteness
  assumption.
-/
import Idealize.ShloMosaic.Lib.ValueIdx

namespace RunningSum

variable {β : Type*} [AddCommMonoid β]

/-- The term at position `s`, and zero from `N` on: the terms as a sequence over all naturals. -/
def term {N : ℕ} (p : Fin N → β) (s : ℕ) : β := if h : s < N then p ⟨s, h⟩ else 0

theorem term_of_lt {N : ℕ} (p : Fin N → β) {s : ℕ} (h : s < N) : term p s = p ⟨s, h⟩ := dif_pos h

/-- After position `n` the running value is the sum of the terms at positions `0, …, n`. -/
theorem prefix_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩) :
    ∀ (n : ℕ) (h : n < N), a n h = ∑ s ∈ Finset.range (n + 1), term p s
  | 0, h => by rw [h0 h, Finset.sum_range_one, term_of_lt p h]
  | n + 1, h => by
    rw [hs n h, prefix_eq p a h0 hs n (Nat.lt_of_succ_lt h), Finset.sum_range_succ _ (n + 1), term_of_lt p h]

/-- At the last position the running value is the sum of all the terms. -/
theorem last_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩)
    (n : ℕ) (h : n < N) (hlast : n + 1 = N) : a n h = ∑ s : Fin N, p s := by
  rw [prefix_eq p a h0 hs n h, hlast, ← Fin.sum_univ_eq_sum_range (term p) N]
  exact Finset.sum_congr rfl fun s _ => term_of_lt p s.isLt

end RunningSum
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.Value.Total.lean ====
/-
  The whole sum. The accumulator starts cleared and every grid point adds its tile's sum, so after the last of the 256
  points it holds the sum of all the tiles' sums; the last point is the only one whose output block is written back, so
  the result cell ends at that total. A tile (i, j) covers the pairs (512 i + p, 512 j + q): the 16 x 16 tiles of
  512 x 512 pairs are the 8192 x 8192 pairs of rows, each once. Only commutativity and associativity of the sum are used.
-/
import proofs.«169935_j73100343378533_1_alg».proof.Proof.Value.Rows
import proofs.«169935_j73100343378533_1_alg».proof.Proof.Ideal.Launch
import proofs.«169935_j73100343378533_1_alg».proof.Proof.LibRunningSum
import proofs.«169935_j73100343378533_1_alg».proof.Proof.LibGroupedSum

set_option maxRecDepth 16384

noncomputable section

open scoped BigOperators

namespace Cert.KernelIdeal.PairValue

open Cert.KernelIdeal Cert.KernelIdeal.Gen Idealize.ShloMosaic Idealize.ShloMosaic.ValueIdx

open Cert.KernelIdeal.Pair

variable (m : (ℓ : Loc nD τ sig) → Buf (Elt Ideal) ℓ)

/-- The cleared accumulator reads zero. -/
theorem cleared (j : S1x1.Idx) : k0_pay2 (F := Ideal) j = 0 := by
  unfold k0_pay2
  refine (congrFun (shapeCast_self _ _) j).trans ?_
  exact Ideal.ofBits_zero_f32

/-! ## The running total in closed form -/

theorem total_first (c : Dev nD) (j : S1x1.Idx) (h : 0 < cfg0.N) : (totals m c 0 h).2 j = pointSum m c ⟨0, h⟩ := by
  rw [total_zero m c ⟨0, h⟩ rfl, step_apply, cleared, zero_add]

theorem total_next (c : Dev nD) (j : S1x1.Idx) (n : ℕ) (h : n + 1 < cfg0.N) :
    (totals m c (n + 1) h).2 j = (totals m c n (Nat.lt_of_succ_lt h)).2 j + pointSum m c ⟨n + 1, h⟩ := by
  rw [total_succ m c ⟨n + 1, h⟩ (Nat.succ_ne_zero n), step_apply]
  rfl

/-- After the last point the accumulator holds the sum of all the points' sums. -/
theorem total_last (c : Dev nD) (j : S1x1.Idx) (h : 255 < cfg0.N) :
    (totals m c 255 h).2 j = ∑ t : Fin cfg0.N, pointSum m c t :=
  RunningSum.last_eq (pointSum m c) (fun n hn => (totals m c n hn).2 j) (total_first m c j) (total_next m c j) 255 h
    (by rw [show cfg0.N = 256 from N_0])

/-! ## The result cell after the region -/

instance : Subsingleton S1x1.Idx := ⟨fun a b => funext fun d => Fin.ext (by
  match d with
  | ⟨0, h0⟩ =>
    have ha : (a ⟨0, h0⟩).val < 1 := (a ⟨0, h0⟩).isLt
    have hb : (b ⟨0, h0⟩).val < 1 := (b ⟨0, h0⟩).isLt
    omega
  | ⟨1, h1⟩ =>
    have ha : (a ⟨1, h1⟩).val < 1 := (a ⟨1, h1⟩).isLt
    have hb : (b ⟨1, h1⟩).val < 1 := (b ⟨1, h1⟩).isLt
    omega)⟩

theorem lastLt : 255 < cfg0.N := by rw [show cfg0.N = 256 from N_0]; omega

/-- The output window's one block is the whole result cell, at every point. -/
theorem idx_out : ∀ t : Fin cfg0.N, win0_4.index t (0 : Fin 2) = 0 ∧ win0_4.index t (1 : Fin 2) = 0 :=
  (by decide +kernel : ∀ t : Fin grid0.N, _)

theorem mem_blk_out (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v0).slice (win0_4.rect t)).set ↔ _
  rw [View.set_slice_whole, Rect.mem_set_unit]
  exact Iff.rfl

/-- The result cell after the region: what the last point left in the output's buffer. -/
theorem out_final (c : Dev nD) : (dats m 0 c).arrAt 4 cfg0.N = (totals m c 255 lastLt).1 := by
  refine (dats m 0 c).arrAt_eq_of_cover 4 (totals m c 255 lastLt).1 (fun t hf => ?_) (fun i => ⟨⟨255, lastLt⟩, (flush0_4 ⟨255, lastLt⟩).mpr (by decide), ?_⟩)
  · have ht : t.val = 255 := by
      have h1 := (flush0_4 t).mp hf
      have h2 : t.val < 256 := lt_of_lt_of_eq t.isLt (show cfg0.N = 256 from N_0)
      omega
    show (cfg0.win 4).cut (grid0.coords t) ((dats m 0 c).after 4 t) = _
    rw [after4]
    obtain ⟨n, hn⟩ := t
    simp only at ht
    subst ht
    funext y
    show (totals m c 255 hn).1 y = (totals m c 255 lastLt).1 (((cfg0.win 4).blk ⟨255, hn⟩).view.emb y)
    exact congrArg (totals m c 255 lastLt).1 (@Subsingleton.elim S1x1.Idx _ y _)
  · rw [mem_blk_out]
    obtain ⟨e0, e1⟩ := idx_out ⟨255, lastLt⟩
    intro a
    match a with
    | ⟨0, h0⟩ =>
      have hi : (i ⟨0, h0⟩).val < 1 := (i ⟨0, h0⟩).isLt
      show win0_4.index ⟨255, lastLt⟩ (0 : Fin 2) * 1 ≤ (i ⟨0, h0⟩).val ∧ (i ⟨0, h0⟩).val < win0_4.index ⟨255, lastLt⟩ (0 : Fin 2) * 1 + 1
      omega
    | ⟨1, h1⟩ =>
      have hi : (i ⟨1, h1⟩).val < 1 := (i ⟨1, h1⟩).isLt
      show win0_4.index ⟨255, lastLt⟩ (1 : Fin 2) * 1 ≤ (i ⟨1, h1⟩).val ∧ (i ⟨1, h1⟩).val < win0_4.index ⟨255, lastLt⟩ (1 : Fin 2) * 1 + 1
      omega

/-! ## Tiles to pairs -/

/-- A grid point's coordinates: its number divided by 16, and the remainder. -/
theorem coords_facts : ∀ t : Fin cfg0.N, (grid0.coords t 0).val = t.val / 16 ∧ (grid0.coords t 1).val = t.val % 16 :=
  (by decide +kernel : ∀ t : Fin grid0.N, _)

theorem tiles_eq : (16 : ℕ) * 16 = cfg0.N := by rw [show cfg0.N = 256 from N_0]

theorem gi_tile (i j : Fin 16) : gi (⟨i.val * 16 + j.val, GroupedSum.group_lt tiles_eq i j⟩ : Fin cfg0.N) = i := by
  apply Fin.ext
  show (grid0.coords (⟨i.val * 16 + j.val, _⟩ : Fin cfg0.N) 0).val = i.val
  rw [(coords_facts _).1]
  have := j.isLt
  show (i.val * 16 + j.val) / 16 = i.val
  omega
theorem gj_tile (i j : Fin 16) : gj (⟨i.val * 16 + j.val, GroupedSum.group_lt tiles_eq i j⟩ : Fin cfg0.N) = j := by
  apply Fin.ext
  show (grid0.coords (⟨i.val * 16 + j.val, _⟩ : Fin cfg0.N) 1).val = j.val
  rw [(coords_facts _).2]
  have := j.isLt
  show (i.val * 16 + j.val) % 16 = j.val
  omega

/-- The sum over the 256 grid points of their tiles' sums is the sum over all ordered pairs of rows. -/
theorem sum_points (c : Dev nD) :
    ∑ t : Fin cfg0.N, pointSum m c t
      = ∑ a : Fin 8192, ∑ b : Fin 8192, PairLoss.term (V m c main_arg0) (V m c main_arg1) a b := by
  rw [GroupedSum.sum_groups tiles_eq (pointSum m c)]
  rw [GroupedSum.sum_groups (by norm_num : 16 * 512 = 8192) (fun a : Fin 8192 => ∑ b : Fin 8192, PairLoss.term (V m c main_arg0) (V m c main_arg1) a b)]
  refine Finset.sum_congr rfl fun i _ => ?_
  have hrow : ∀ (p : Fin 512), (∑ b : Fin 8192, PairLoss.term (V m c main_arg0) (V m c main_arg1) (rowOf i p) b)
      = ∑ j : Fin 16, ∑ q : Fin 512, PairLoss.term (V m c main_arg0) (V m c main_arg1) (rowOf i p) (rowOf j q) := fun p =>
    GroupedSum.sum_groups (by norm_num : 16 * 512 = 8192) (fun b : Fin 8192 => PairLoss.term (V m c main_arg0) (V m c main_arg1) (rowOf i p) b)
  have hpt : ∀ (j : Fin 16), pointSum m c (⟨i.val * 16 + j.val, GroupedSum.group_lt tiles_eq i j⟩ : Fin cfg0.N)
      = ∑ p : Fin 512, ∑ q : Fin 512, PairLoss.term (V m c main_arg0) (V m c main_arg1) (rowOf i p) (rowOf j q) := fun j => by
    unfold pointSum; rw [gi_tile, gj_tile]
  calc ∑ j : Fin 16, pointSum m c (⟨i.val * 16 + j.val, GroupedSum.group_lt tiles_eq i j⟩ : Fin cfg0.N)
      = ∑ j : Fin 16, ∑ p : Fin 512, ∑ q : Fin 512, PairLoss.term (V m c main_arg0) (V m c main_arg1) (rowOf i p) (rowOf j q) :=
        Finset.sum_congr rfl fun j _ => hpt j
    _ = ∑ p : Fin 512, ∑ j : Fin 16, ∑ q : Fin 512, PairLoss.term (V m c main_arg0) (V m c main_arg1) (rowOf i p) (rowOf j q) := Finset.sum_comm
    _ = ∑ p : Fin 512, ∑ b : Fin 8192, PairLoss.term (V m c main_arg0) (V m c main_arg1) (rowOf i p) b :=
        Finset.sum_congr rfl fun p _ => (hrow p).symm

/-- The result cell after the region holds the sum of the loss's terms over all ordered pairs of rows. -/
theorem out_value (c : Dev nD) (j : S1x1.Idx) :
    (dats m 0 c).arrAt 4 cfg0.N j = ∑ a : Fin 8192, ∑ b : Fin 8192, PairLoss.term (V m c main_arg0) (V m c main_arg1) a b := by
  rw [out_final]
  have h := totals_fst_eq_snd m c ⟨255, lastLt⟩
  rw [show (totals m c 255 lastLt).1 = (totals m c 255 lastLt).2 from h, total_last, sum_points]

end Cert.KernelIdeal.PairValue

end
-- ==== Proof.Value.Reference.lean ====
/-
  The reference, entry by entry. Its stages are read one at a time (the generated read-at-an-index lemmas); at the pair
  (a, b) of rows its summand is the loss's term in the guarded spelling — the guarded root of the squared distance,
  squared back, negated and halved inside the exponential; one minus the diagonal's indicator; the guarded root of the
  second array's squared distance — which the laws of the specification turn into the term itself. Its result is the
  scale times the quotient of the sum over all pairs by the pair count.
-/
import proofs.«169935_j73100343378533_1_alg».proof.Proof.Gen.ReferenceIdeal.Read
import proofs.«169935_j73100343378533_1_alg».proof.Proof.PairLoss
import Idealize.ShloMosaic.Lib.IdealHost

set_option maxRecDepth 16384

noncomputable section

open scoped BigOperators

namespace Cert.ReferenceIdeal.PairRef

open Cert.ReferenceIdeal Cert.ReferenceIdeal.Gen Cert.ReferenceIdeal.Read Idealize.ShloMosaic Idealize.ShloMosaic.ValueIdx

/-- The first array's squared distances. -/
theorem dist_points (x0 : (⟨S8192x2, .f32⟩ : BufTy).Contents (Elt Ideal)) (a b : Fin 8192) :
    val_main_v13 (F := Ideal) x0 (ix2 a b) = PairLoss.sqDist x0 a b := by
  unfold PairLoss.sqDist
  rw [val_main_v13_apply, val_main_v11_apply, val_main_v6_apply, val_main_v4_apply, val_main_v2_apply, val_main_v1_apply,
    val_main_v5_apply, val_main_v3_apply, val_main_v1_apply, val_main_v10_apply, val_main_v9_apply, val_main_v8_apply, val_main_v12_apply]
  have e1 : ∀ k : Fin 2, idx_main_v1 (idx_main_v2 (idx_main_v4 (ix2 a b))) k = ix2 a k := fun k => funext fun d => Fin.ext (by match d with | ⟨0, _⟩ => rfl | ⟨1, _⟩ => rfl)
  have e2 : ∀ k : Fin 2, idx_main_v1 (idx_main_v3 (idx_main_v5 (ix2 a b))) k = ix2 b k := fun k => funext fun d => Fin.ext (by match d with | ⟨0, _⟩ => rfl | ⟨1, _⟩ => rfl)
  have e3 : ∀ k : Fin 2, lidx_main_v8 (ix2 a b) k = ix2 a k := fun k => funext fun d => Fin.ext (by match d with | ⟨0, _⟩ => rfl | ⟨1, _⟩ => rfl)
  have e4 : ∀ k : Fin 2, idx_main_v7 (ridx_main_v8 (ix2 a b) k) = ix2 b k := fun k => funext fun d => Fin.ext (by match d with | ⟨0, _⟩ => rfl | ⟨1, _⟩ => rfl)
  simp only [e1, e2, e3, e4, val_main_v0_apply, val_main_v7_apply, val_main_cst_apply, val_main_cst_0_apply, val_main_cst_1_apply,
    Ideal.mulf_def, Ideal.addf_def, Ideal.subf_def, Ideal.maximumf_def, Ideal.ofBits_def, PairLoss.word_zero, zero_add]

/-- The second array's squared distances. -/
theorem dist_outputs (x1 : (⟨S8192x8, .f32⟩ : BufTy).Contents (Elt Ideal)) (a b : Fin 8192) :
    val_main_v48 (F := Ideal) x1 (ix2 a b) = PairLoss.sqDist x1 a b := by
  unfold PairLoss.sqDist
  rw [val_main_v48_apply, val_main_v46_apply, val_main_v41_apply, val_main_v39_apply, val_main_v37_apply, val_main_v36_apply,
    val_main_v40_apply, val_main_v38_apply, val_main_v36_apply, val_main_v45_apply, val_main_v44_apply, val_main_v43_apply, val_main_v47_apply]
  have e1 : ∀ k : Fin 8, idx_main_v36 (idx_main_v37 (idx_main_v39 (ix2 a b))) k = ix2 a k := fun k => funext fun d => Fin.ext (by match d with | ⟨0, _⟩ => rfl | ⟨1, _⟩ => rfl)
  have e2 : ∀ k : Fin 8, idx_main_v36 (idx_main_v38 (idx_main_v40 (ix2 a b))) k = ix2 b k := fun k => funext fun d => Fin.ext (by match d with | ⟨0, _⟩ => rfl | ⟨1, _⟩ => rfl)
  have e3 : ∀ k : Fin 8, lidx_main_v43 (ix2 a b) k = ix2 a k := fun k => funext fun d => Fin.ext (by match d with | ⟨0, _⟩ => rfl | ⟨1, _⟩ => rfl)
  have e4 : ∀ k : Fin 8, idx_main_v42 (ridx_main_v43 (ix2 a b) k) = ix2 b k := fun k => funext fun d => Fin.ext (by match d with | ⟨0, _⟩ => rfl | ⟨1, _⟩ => rfl)
  simp only [e1, e2, e3, e4, val_main_v35_apply, val_main_v42_apply, val_main_cst_8_apply, val_main_cst_9_apply, val_main_cst_10_apply,
    Ideal.mulf_def, Ideal.addf_def, Ideal.subf_def, Ideal.maximumf_def, Ideal.ofBits_def, PairLoss.word_zero, zero_add]

/-- The guarded root of the first array's squared distance. -/
theorem root_points (x0 : (⟨S8192x2, .f32⟩ : BufTy).Contents (Elt Ideal)) (a b : Fin 8192) :
    val_main_v20 (F := Ideal) x0 (ix2 a b) = PairLoss.guardedRoot (PairLoss.sqDist x0 a b) := by
  unfold PairLoss.guardedRoot
  rw [val_main_v20_apply, val_main_v15_apply, val_main_v19_apply, val_main_v18_apply, val_main_v17_apply, dist_points,
    val_main_v14_apply, val_main_v16_apply, val_main_call0_v1_apply, val_main_call1_v1_apply]
  rfl

/-- The guarded root of the second array's squared distance. -/
theorem root_outputs (x1 : (⟨S8192x8, .f32⟩ : BufTy).Contents (Elt Ideal)) (a b : Fin 8192) :
    val_main_v55 (F := Ideal) x1 (ix2 a b) = PairLoss.guardedRoot (PairLoss.sqDist x1 a b) := by
  unfold PairLoss.guardedRoot
  rw [val_main_v55_apply, val_main_v50_apply, val_main_v54_apply, val_main_v53_apply, val_main_v52_apply, dist_outputs,
    val_main_v49_apply, val_main_v51_apply, val_main_call2_v1_apply, val_main_call3_v1_apply]
  rfl

/-- The diagonal's bit: the two row numbers, as words, are equal exactly when the rows are. -/
theorem diag_bit (a b : Fin 8192) :
    IntOp.cmpi .eq (IntOp.addi (BitVec.ofNat 32 a.val) 0#32) (BitVec.ofNat 32 b.val) = BitVec.ofBool (decide (a = b)) := by
  have hadd : IntOp.addi (BitVec.ofNat 32 a.val) 0#32 = BitVec.ofNat 32 a.val := by simp [IntOp.addi]
  rw [hadd]
  by_cases h : a = b
  · subst h; simp [IntOp.cmpi]
  · have hne : BitVec.ofNat 32 a.val ≠ BitVec.ofNat 32 b.val := by
      intro e
      have e' := congrArg BitVec.toNat e
      simp only [BitVec.toNat_ofNat, Nat.reducePow] at e'
      have ha := a.isLt; have hb := b.isLt
      exact h (Fin.ext (by omega))
    simp [IntOp.cmpi, beq_eq_false_iff_ne.mpr hne, h]

/-- The reference's summand at the pair (a, b) is the loss's term. -/
theorem summand (x0 : (⟨S8192x2, .f32⟩ : BufTy).Contents (Elt Ideal)) (x1 : (⟨S8192x8, .f32⟩ : BufTy).Contents (Elt Ideal)) (a b : Fin 8192) :
    val_main_v56 (F := Ideal) x0 x1 (ix2 a b) = PairLoss.term x0 x1 a b := by
  rw [← PairLoss.term_guarded]
  rw [val_main_v56_apply, val_main_v34_apply, val_main_v25_apply, val_main_v24_apply, val_main_v22_apply, val_main_v21_apply, root_points,
    val_main_v23_apply, val_main_v33_apply, val_main_v32_apply, val_main_v31_apply, val_main_v30_apply, val_main_v29_apply,
    val_main_v26_apply, val_main_v27_apply, val_main_v28_apply, root_outputs]
  rw [val_main_cst_6_apply, val_main_cst_7_apply, val_main_c_apply]
  rw [show IntOp.cmpi .eq (IntOp.addi (BitVec.ofNat 32 ((ix2 a b : S8192x8192.Idx) 0).val) 0#32) (BitVec.ofNat 32 ((ix2 a b : S8192x8192.Idx) 1).val)
      = BitVec.ofBool (decide (a = b)) from diag_bit a b]
  rfl

/-- The reference's result: the scale times the quotient, by the pair count, of the sum over all ordered pairs of rows. -/
theorem result (x0 : (⟨S8192x2, .f32⟩ : BufTy).Contents (Elt Ideal)) (x1 : (⟨S8192x8, .f32⟩ : BufTy).Contents (Elt Ideal)) (i : S_.Idx) :
    val_main_v59 (F := Ideal) x0 x1 i
      = Ideal.ofBits .f32 0x3C23D70A#32
          * Ideal.div (∑ a : Fin 8192, ∑ b : Fin 8192, PairLoss.term x0 x1 a b) (Ideal.ofBits .f32 0x4C7FF800#32) := by
  rw [val_main_v59_apply, val_main_v58_apply, val_main_v57_apply, val_main_cst_17_apply, val_main_cst_16_apply, val_main_cst_15_apply,
    sum_idx2]
  simp only [summand, Ideal.ofBits_def, PairLoss.word_zero, zero_add]
  rfl

end Cert.ReferenceIdeal.PairRef

end
-- ==== Proof.Ideal.Frame.lean ====
/-
  The frame. The run's post has every window's array at what the proof data computes; the two argument arrays are only
  ever read, so they end as they were launched. Stated at any float instance.
-/
import proofs.«169935_j73100343378533_1_alg».proof.Proof.Ideal.Launch

set_option maxRecDepth 16384

noncomputable section

namespace Cert.KernelIdeal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 0).trans ((arrAt_in0 m c _).trans (V_main_arg0 m c)),
      ((h c).1 2).trans ((arrAt_in2 m c _).trans (V_main_arg1 m c))⟩) (run_main m ρ)

end Cert.KernelIdeal.Pair

end
-- ==== Proof.Bits.Setting.lean ====
/-
  The pairwise-sum kernel as the pipeline runs it: what its buffers hold when the region is entered, @main as
  "the region, then five scalar host lines", each window's block of rows read off its array, the one branch of
  the body (the accumulator is cleared exactly at the first grid point) decided over the 16 x 16 grid, and the
  names of the memrefs the body is called with. Everything here holds at any float instance.
-/
import proofs.«169935_j73100343378533_1_alg».proof.Proof.Gen.Kernel.Launch
import proofs.«169935_j73100343378533_1_alg».proof.Proof.Gen.Kernel.Skeleton
import proofs.«169935_j73100343378533_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: no host line precedes it, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the five scalar lines (reshape, the two constants, the product, the quotient). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block of rows at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    or kept it from the point before (the block index did not move): for any proof data over the entry contents
    whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition under which the body clears its accumulator: both grid coordinates are zero (the scalar chain
    of the printed `scf.if`). -/
abbrev atStart (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first of the 256 points and at no other. -/
theorem atStart_iff : ∀ t : Fin cfg0.N, atStart (grid0.coords t) ↔ t.val = 0 :=
  (by decide +kernel : ∀ t : Fin grid0.N, atStart (grid0.coords t) ↔ t.val = 0)

/-- No window is ever idle: every point loads all four inputs and stores the output. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The memrefs the body is called with -/

/-- The views through which the output's staging buffer and the accumulator are read back. -/
abbrev outView : View sig .tc .vmem S1x1 .f32 := (Memref.whole cc0_stg4_0 : Memref sig .tc .vmem S1x1 .f32).view
abbrev accMem : Memref sig .tc .vmem S1x1 .f32 := Memref.whole cc0_scratch0
abbrev accView : View sig .tc .vmem S1x1 .f32 := accMem.view

abbrev ms0 (t : Fin cfg0.N) : Memref sig .tc .vmem S512x2 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x8 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x8 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- What the region's invariant holds besides the windows: the accumulator at some contents and the generator
    register at some state. -/
theorem PhiA_eq (c : Dev nD) :
    (Pipeline.ΦA spec0 c : sProp 𝕄)
      = iprop(iprop((∃ d, owns (c : Thread nD τ) accMem fullShare d)) ∗ (∃ r, prngReg c r)) := by
  unfold Pipeline.ΦA; rw [scopedRest0_eq]; simp only [accMem, owns_whole]; try rfl

end Cert.Kernel.Pair

end
-- ==== Proof.Bits.RunStart.lean ====
/-
  The body at the first grid point, on any whole memrefs: the accumulator, whatever it held, is cleared, the tile's
  weighted sum is added to it, and the result is copied to the output's buffer. Stated as the pieces the two written
  buffers end with, together with the run that finds them.
-/
import proofs.«169935_j73100343378533_1_alg».proof.Proof.Bits.Setting

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body where both grid coordinates are zero: inputs kept, output and accumulator left as the stores' pieces. -/
noncomputable def runStart (c : Dev nD) (i : grid0.Coords) (arg2 : Memref sig .tc .vmem S512x2 .f32) (harg2 : arg2.IsWhole) (arg3 : Memref sig .tc .vmem S512x2 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x1 .f32) (harg6 : arg6.IsWhole) (arg7 : Memref sig .tc .vmem S1x1 .f32) (harg7 : arg7.IsWhole) (hc : atStart i)
    (x0 : Vec F S512x2 .f32) (x1 : Vec F S512x2 .f32) (x2 : Vec F S512x8 .f32) (x3 : Vec F S512x8 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1; obtain rfl := harg4.eq_unread hf2; obtain rfl := harg5.eq_unread hf3
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Pair

end
-- ==== Proof.Bits.RunLater.lean ====
/-
  The body at every later grid point, on any whole memrefs: the accumulator holds the running total the point
  before left; the tile's weighted sum is added to it and the result copied to the output's buffer.
-/
import proofs.«169935_j73100343378533_1_alg».proof.Proof.Bits.RunStart

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body away from the first point: inputs kept, output and accumulator left as the stores' pieces. -/
noncomputable def runLater (c : Dev nD) (i : grid0.Coords) (arg2 : Memref sig .tc .vmem S512x2 .f32) (harg2 : arg2.IsWhole) (arg3 : Memref sig .tc .vmem S512x2 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x1 .f32) (harg6 : arg6.IsWhole) (arg7 : Memref sig .tc .vmem S1x1 .f32) (harg7 : arg7.IsWhole) (hc : ¬atStart i)
    (x0 : Vec F S512x2 .f32) (x1 : Vec F S512x2 .f32) (x2 : Vec F S512x8 .f32) (x3 : Vec F S512x8 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Pair

end
-- ==== Proof.Bits.Totals.lean ====
/-
  The running total. After grid point t the accumulator and the output's staging buffer both hold the sum of the
  tiles' weighted sums over the points up to t: the first point starts from a cleared accumulator, every later point
  adds its tile to what the point before left. This module names those contents by recursion on the point, states
  the region's invariant and proof data over them (the two windows that read one array each hold half of it), and
  proves the body's obligation at a symbolic point from the two runs.
-/
import proofs.«169935_j73100343378533_1_alg».proof.Proof.Bits.RunLater

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves -/

/-- At the first point the stores into the output's buffer cover it. -/
theorem coverOutStart (c : Dev nD) (t : Fin cfg0.N) (hc : atStart (grid0.coords t)) (y : S1x1.Idx) :
    ∃ pc ∈ (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).1, y ∈ pc.1.set :=
  View.cover_of_tiledL (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).1 S1x1.size (by sl_kernel_rfl) y
/-- What the first point leaves in the output's buffer. -/
def outStart (c : Dev nD) (t : Fin cfg0.N) (hc : atStart (grid0.coords t)) : Vec F S1x1 .f32 :=
  outView.read (Elt F) (outView.writes (Elt F) outView.junk (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).1)
/-- At the first point the stores into the accumulator cover it. -/
theorem coverAccStart (c : Dev nD) (t : Fin cfg0.N) (hc : atStart (grid0.coords t)) (y : S1x1.Idx) :
    ∃ pc ∈ (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).2.1, y ∈ pc.1.set :=
  View.cover_of_tiledL (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).2.1 S1x1.size (by sl_kernel_rfl) y
/-- What the first point leaves in the accumulator. -/
def accStart (c : Dev nD) (t : Fin cfg0.N) (hc : atStart (grid0.coords t)) : Vec F S1x1 .f32 :=
  accView.read (Elt F) (accView.writes (Elt F) accView.junk (runStart c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t)).2.1)

/-- At a later point the stores into the output's buffer cover it. -/
theorem coverOutLater (c : Dev nD) (t : Fin cfg0.N) (hc : ¬atStart (grid0.coords t)) (xs : Vec F S1x1 .f32) (y : S1x1.Idx) :
    ∃ pc ∈ (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).1, y ∈ pc.1.set :=
  View.cover_of_tiledL (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).1 S1x1.size (by sl_kernel_rfl) y
/-- What a later point leaves in the output's buffer, the accumulator having held `xs`. -/
def outLater (c : Dev nD) (t : Fin cfg0.N) (hc : ¬atStart (grid0.coords t)) (xs : Vec F S1x1 .f32) : Vec F S1x1 .f32 :=
  outView.read (Elt F) (outView.writes (Elt F) outView.junk (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).1)
/-- At a later point the stores into the accumulator cover it. -/
theorem coverAccLater (c : Dev nD) (t : Fin cfg0.N) (hc : ¬atStart (grid0.coords t)) (xs : Vec F S1x1 .f32) (y : S1x1.Idx) :
    ∃ pc ∈ (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).2.1, y ∈ pc.1.set :=
  View.cover_of_tiledL (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).2.1 S1x1.size (by sl_kernel_rfl) y
/-- What a later point leaves in the accumulator, which held `xs`. -/
def accLater (c : Dev nD) (t : Fin cfg0.N) (hc : ¬atStart (grid0.coords t)) (xs : Vec F S1x1 .f32) : Vec F S1x1 .f32 :=
  accView.read (Elt F) (accView.writes (Elt F) accView.junk (runLater c (grid0.coords t) (ms0 t) (hs0 t) (ms1 t) (hs1 t) (ms2 t) (hs2 t) (ms3 t) (hs3 t) (ms4 t) (hs4 t) accMem (Memref.isWhole_whole _) hc (iblk m c 0 t) (iblk m c 1 t) (iblk m c 2 t) (iblk m c 3 t) xs).2.1)

/-! ## The running total, point by point -/

/-- After point `n`: the output's buffer and the accumulator (in that order). -/
def totals (c : Dev nD) : (n : ℕ) → n < cfg0.N → Vec F S1x1 .f32 × Vec F S1x1 .f32
  | 0, hn => (outStart m c ⟨0, hn⟩ ((atStart_iff ⟨0, hn⟩).mpr rfl), accStart m c ⟨0, hn⟩ ((atStart_iff ⟨0, hn⟩).mpr rfl))
  | n + 1, hn =>
    (outLater m c ⟨n + 1, hn⟩ (fun h => Nat.succ_ne_zero n ((atStart_iff ⟨n + 1, hn⟩).mp h)) (totals c n (Nat.lt_of_succ_lt hn)).2,
     accLater m c ⟨n + 1, hn⟩ (fun h => Nat.succ_ne_zero n ((atStart_iff ⟨n + 1, hn⟩).mp h)) (totals c n (Nat.lt_of_succ_lt hn)).2)

theorem totals_start (c : Dev nD) (t : Fin cfg0.N) (h0 : t.val = 0) :
    totals m c t.val t.isLt = (outStart m c t ((atStart_iff t).mpr h0), accStart m c t ((atStart_iff t).mpr h0)) := by
  obtain ⟨n, hn⟩ := t
  cases n with
  | zero => rfl
  | succ n => exact absurd h0 (Nat.succ_ne_zero n)

theorem totals_later (c : Dev nD) (t : Fin cfg0.N) (h0 : t.val ≠ 0) :
    totals m c t.val t.isLt
      = (outLater m c t (fun h => h0 ((atStart_iff t).mp h)) (totals m c (t.val - 1) (Nat.lt_of_le_of_lt (Nat.sub_le _ _) t.isLt)).2,
         accLater m c t (fun h => h0 ((atStart_iff t).mp h)) (totals m c (t.val - 1) (Nat.lt_of_le_of_lt (Nat.sub_le _ _) t.isLt)).2) := by
  obtain ⟨n, hn⟩ := t
  cases n with
  | zero => exact absurd rfl h0
  | succ n => rfl

/-! ## The invariant between points -/

/-- Before the first point the accumulator holds anything; after point `n` it holds that point's total. -/
def PhiS (c : Dev nD) : (n : ℕ) → n ≤ cfg0.N → sProp 𝕄
  | 0, _ => Pipeline.ΦA spec0 c
  | n + 1, hn => iprop(iprop(owns (c : Thread nD τ) accMem fullShare ((totals m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accMem fullShare ((totals m c n hn).2)) ∗ (∃ r, prngReg c r)) := rfl
theorem PhiS_pos (c : Dev nD) (n : ℕ) (h : n ≤ cfg0.N) (hz : n ≠ 0) :
    PhiS m c n h = iprop(iprop(owns (c : Thread nD τ) accMem fullShare ((totals m c (n - 1) (by omega)).2)) ∗ (∃ r, prngReg c r)) := by
  cases n with
  | zero => exact absurd rfl hz
  | succ n => rfl

/-! ## The proof data -/

/-- Per core: the arrays as the region finds them; after the body every input's buffer still at its block and the
    output's at the running total; the invariant above; nothing owed. Windows 0 and 1 read the points array and
    windows 2 and 3 the outputs array: each pair splits its array's share in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (totals m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (totals m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation at a symbolic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; at the first point the accumulator is handed over at
    anything and at a later point at the total the point before left; the run of the matching case applies, and the
    two written buffers are taken back at this point's total. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  by_cases hz : t.val = 0
  · rw [totals_start m c t hz]
    unfold outStart accStart; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runStart c (grid0.coords t) _ _ _ _ _ _ _ _ _ _ _ _ ((atStart_iff t).mpr hz) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverAccStart m c t _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutStart m c t _)
  · rw [totals_later m c t hz]
    unfold outLater accLater; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runLater c (grid0.coords t) _ _ _ _ _ _ _ _ _ _ _ _ (fun h => hz ((atStart_iff t).mp h)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverAccLater m c t _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOutLater m c t _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back, its contents forgotten. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ ht, PhiA_eq]
  iintro ⟨HS, Hg⟩
  isplitl [HS]
  · iexists _; iexact HS
  iexact Hg

end Cert.Kernel.Pair

end
-- ==== Proof.Bits.Halves.lean ====
/-
  One array, two readers. Windows 0 and 1 both read the points array and windows 2 and 3 the outputs array, so the
  region cannot hold each window's array outright: each pair splits its array's full share into its two halves.
  This module states that split as an equation and reads the pipeline's five arrays against the three buffers behind
  them: whenever the paired windows see one contents, "the five arrays at their shares" IS "the three buffers whole".
-/
import proofs.«169935_j73100343378533_1_alg».proof.Proof.Bits.Totals

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef)

/-- A whole buffer at the full share is its two halves at the same contents. -/
theorem halves {ℓ : Loc nD τ sig} (f : Buf (Elt F) ℓ) :
    ((ℓ ↦{fullShare} f : sProp 𝕄)) = iprop((ℓ ↦{fullShare.left} f) ∗ ℓ ↦{fullShare.right} f) :=
  equiv_iff.mp ⟨(pointsTo_share (PosShare.mem_left_op_right fullShare)).mp, (pointsTo_share (PosShare.mem_left_op_right fullShare)).mpr⟩

/-- Five conjuncts regrouped as two pairs and a single. -/
theorem regroup (A B C D E : sProp 𝕄) : iprop(A ∗ B ∗ C ∗ D ∗ E) = iprop((A ∗ B) ∗ (C ∗ D) ∗ E) := by
  have h1 : iprop(A ∗ B ∗ C ∗ D ∗ E) ⊢ iprop((A ∗ B) ∗ (C ∗ D) ∗ E) := by
    iintro ⟨HA, HB, HC, HD, HE⟩
    isplitl [HA HB]
    · isplitl [HA]; · iexact HA
      iexact HB
    isplitl [HC HD]
    · isplitl [HC]; · iexact HC
      iexact HD
    iexact HE
  have h2 : iprop((A ∗ B) ∗ (C ∗ D) ∗ E) ⊢ iprop(A ∗ B ∗ C ∗ D ∗ E) := by
    iintro ⟨⟨HA, HB⟩, ⟨HC, HD⟩, HE⟩
    isplitl [HA]; · iexact HA
    isplitl [HB]; · iexact HB
    isplitl [HC]; · iexact HC
    isplitl [HD]; · iexact HD
    iexact HE
  exact equiv_iff.mp ⟨h1, h2⟩

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The five windows' arrays, one by one: left and right halves of the two input arrays, the result cell whole. -/
theorem arrays_chain (c : Dev nD) (G : (w : Fin cfg0.W) → Buf (Elt F) ((cfg0.win w).arr.view.loc (c.tc : Thread nD τ))) :
    ((dats m 0 c).arrays G : sProp 𝕄) = iprop(
        (((c.tc : Thread nD τ).loc main_arg0) ↦{fullShare.left} G 0) ∗ (((c.tc : Thread nD τ).loc main_arg0) ↦{fullShare.right} G 1)
      ∗ (((c.tc : Thread nD τ).loc main_arg1) ↦{fullShare.left} G 2) ∗ (((c.tc : Thread nD τ).loc main_arg1) ↦{fullShare.right} G 3)
      ∗ (((c.tc : Thread nD τ).loc main_v0) ↦{fullShare} G 4)) := by
  unfold Dat.arrays
  rw [bigSep_W0, share0, share1, share2, share3, share4]
  simp only [Memref.IsWhole.set_eq_univ (arr_whole0 0), Memref.IsWhole.set_eq_univ (arr_whole0 1), Memref.IsWhole.set_eq_univ (arr_whole0 2),
    Memref.IsWhole.set_eq_univ (arr_whole0 3), Memref.IsWhole.set_eq_univ (arr_whole0 4)]

/-- The three buffers behind the arrays, one by one. -/
theorem bufs_chain (c : Dev nD) (Wv : (b : Ref sig .tc) → Buf (Elt F) ((c.tc : Thread nD τ).loc b)) :
    (arrBufs spec0 c Wv : sProp 𝕄) = iprop(
        (((c.tc : Thread nD τ).loc main_arg0) ↦{fullShare} Wv main_arg0)
      ∗ (((c.tc : Thread nD τ).loc main_arg1) ↦{fullShare} Wv main_arg1)
      ∗ (((c.tc : Thread nD τ).loc main_v0) ↦{fullShare} Wv main_v0)) := by
  unfold Pipeline.arrBufs
  rw [bigSep_eq_bigSepL_of_eq [main_arg0, main_arg1, main_v0] (by decide) (by decide)]
  rfl

/-- When windows 0 and 1 see the points array's contents, windows 2 and 3 the outputs array's and window 4 the result
    cell's, the five arrays at their shares are the three buffers held whole. -/
theorem arrays_eq_bufs (c : Dev nD) (Wv : (b : Ref sig .tc) → Buf (Elt F) ((c.tc : Thread nD τ).loc b))
    (G : (w : Fin cfg0.W) → Buf (Elt F) ((cfg0.win w).arr.view.loc (c.tc : Thread nD τ)))
    (h0 : G 0 = Wv main_arg0) (h1 : G 1 = Wv main_arg0) (h2 : G 2 = Wv main_arg1) (h3 : G 3 = Wv main_arg1) (h4 : G 4 = Wv main_v0) :
    ((dats m 0 c).arrays G : sProp 𝕄) = arrBufs spec0 c Wv := by
  rw [arrays_chain, bufs_chain, h0, h1, h2, h3, h4, halves (Wv main_arg0), halves (Wv main_arg1)]
  exact regroup (F := F) _ _ _ _ _

end Cert.Kernel.Pair

end
-- ==== Proof.Bits.Launch.lean ====
/-
  The launch. The region runs the body at the 256 grid points and the five scalar host lines follow it. The
  library's launch theorem for windows that share arrays asks for three things the proof supplies here: how the three
  buffers behind the arrays, held whole at entry, make the five windows' arrays at their shares (each input array
  split in halves between its two readers); that the host lines, which touch only the result cell and the five scalar
  buffers, run from the arrays' final contents (the halves put together again for their run and split afterwards);
  and the reading of every buffer's final contents. The conclusion: every weakly fair execution of @main ends with
  each window's array at what the proof data computes and every other unscoped buffer at what the five lines leave.
-/
import proofs.«169935_j73100343378533_1_alg».proof.Proof.Bits.Halves

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef unscopedRest unscopedRestP restRefs restRefsP ucRefs)

/-! ## What the buffers hold at the region's exit and after the lines -/

/-- At the region's exit: the result cell at the final running total, every other buffer as at entry. -/
def exitVal (c : Dev nD) : Valuation τ sig (Elt F) :=
  Function.update (V0 m c) (Proc.devRef .tc main_v0) ((dats m 0 c).arrAt 4 cfg0.N)

/-- After the five host lines, read at a TensorCore reference. -/
def finalVal (c : Dev nD) (b : Ref sig .tc) : Buf (Elt F) ((c.tc : Thread nD τ).loc b) :=
  StableHlo.after hostOps1 (exitVal m c) (Proc.devRef .tc b)

theorem exitVal_out (c : Dev nD) : exitVal m c (Proc.devRef .tc main_v0) = (dats m 0 c).arrAt 4 cfg0.N := by
  unfold exitVal; exact Function.update_self _ _ _

theorem exitVal_of_ne (c : Dev nD) (b : Ref sig .tc) (hb : b ≠ main_v0) : exitVal m c (Proc.devRef .tc b) = V m c b := by
  unfold exitVal
  exact Function.update_of_ne (fun e => hb (Proc.devRef_injective _ e)) _ _

/-- An input window's array is never written: at every point it holds the entry contents. -/
theorem arrAt_in0 (c : Dev nD) (n : ℕ) : (dats m 0 c).arrAt 0 n = V m c main_arg0 := ((dats m 0 c).arrAt_in 0 rfl n).trans (A_eq m c 0)
theorem arrAt_in1 (c : Dev nD) (n : ℕ) : (dats m 0 c).arrAt 1 n = V m c main_arg0 := ((dats m 0 c).arrAt_in 1 rfl n).trans (A_eq m c 1)
theorem arrAt_in2 (c : Dev nD) (n : ℕ) : (dats m 0 c).arrAt 2 n = V m c main_arg1 := ((dats m 0 c).arrAt_in 2 rfl n).trans (A_eq m c 2)
theorem arrAt_in3 (c : Dev nD) (n : ℕ) : (dats m 0 c).arrAt 3 n = V m c main_arg1 := ((dats m 0 c).arrAt_in 3 rfl n).trans (A_eq m c 3)

/-- The five lines write neither argument array nor the result cell. -/
theorem finalVal_arg0 (c : Dev nD) : finalVal m c main_arg0 = V m c main_arg0 := by
  unfold finalVal hostOps1; after_results; exact exitVal_of_ne m c main_arg0 (by decide)
theorem finalVal_arg1 (c : Dev nD) : finalVal m c main_arg1 = V m c main_arg1 := by
  unfold finalVal hostOps1; after_results; exact exitVal_of_ne m c main_arg1 (by decide)
theorem finalVal_out (c : Dev nD) : finalVal m c main_v0 = (dats m 0 c).arrAt 4 cfg0.N := by
  unfold finalVal hostOps1; after_results; exact exitVal_out m c

/-- The bypassing buffers are not the result cell: at the exit they are as at entry. -/
theorem rest_exit (c : Dev nD) :
    (unscopedRest spec0 c (V m c) : sProp 𝕄) = unscopedRest spec0 c (fun b => exitVal m c (Proc.devRef .tc b)) := by
  unfold Pipeline.unscopedRest
  exact bigSep_congr fun b hb => by
    dsimp only
    rw [exitVal_of_ne m c b fun e => (Finset.mem_sdiff.mp hb).2 (Finset.mem_image.mpr ⟨4, Finset.mem_univ _, e ▸ rfl⟩)]

/-! ## The lines after the region -/

theorem tail_sub : ∀ ops ∈ ([hostOps1] : List (List (HloOp τ sig (Elt F)))), ∀ op ∈ ops, op.bufs ⊆ ucRefs τ sig := by
  intro ops hops op hop
  simp only [List.mem_cons, List.mem_nil_iff, or_false] at hops
  rcases hops with rfl
  exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- From the region's exit the five lines run, holding every unscoped buffer whole (the input arrays' halves joined
    for the run), and hand back the arrays at their final contents and the bypassing buffers at what the lines leave. -/
theorem tail (c : Dev nD) (Q' : PUnit → sProp 𝕄) :
    iprop((iprop((dats m 0 c).arrays ((dats m 0 c).arrAt · cfg0.N) ∗ unscopedRestP Pipeline.Prefetch.none spec0 c (finalVal m c)) -∗ Q' ⟨⟩)
        ∗ boundary (c.tc : Thread nD τ) ∗ (dats m 0 c).arrays ((dats m 0 c).arrAt · cfg0.N) ∗ unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hE : ((dats m 0 c).arrays ((dats m 0 c).arrAt · cfg0.N) : sProp 𝕄) = arrBufs spec0 c (fun b => exitVal m c (Proc.devRef .tc b)) :=
    arrays_eq_bufs m c _ _ ((arrAt_in0 m c _).trans (exitVal_of_ne m c main_arg0 (by decide)).symm)
      ((arrAt_in1 m c _).trans (exitVal_of_ne m c main_arg0 (by decide)).symm)
      ((arrAt_in2 m c _).trans (exitVal_of_ne m c main_arg1 (by decide)).symm)
      ((arrAt_in3 m c _).trans (exitVal_of_ne m c main_arg1 (by decide)).symm) (exitVal_out m c).symm
  have hF : ((dats m 0 c).arrays ((dats m 0 c).arrAt · cfg0.N) : sProp 𝕄) = arrBufs spec0 c (finalVal m c) :=
    arrays_eq_bufs m c _ _ ((arrAt_in0 m c _).trans (finalVal_arg0 m c).symm) ((arrAt_in1 m c _).trans (finalVal_arg0 m c).symm)
      ((arrAt_in2 m c _).trans (finalVal_arg1 m c).symm) ((arrAt_in3 m c _).trans (finalVal_arg1 m c).symm) (finalVal_out m c).symm
  have hpre : iprop((dats m 0 c).arrays ((dats m 0 c).arrAt · cfg0.N) ∗ unscopedRestP Pipeline.Prefetch.none spec0 c (V m c))
      = (StableHlo.held (c.tc : Thread nD τ) (ucRefs τ sig) (exitVal m c) : sProp 𝕄) := by
    rw [Pipeline.unscopedRestP_none, rest_exit, hE, ← Pipeline.unscopedBufs_split₀ cfgs 0 winFacts₀0.arr_unscoped c,
      Pipeline.unscopedBufs_held (Ix := Unit) (Name := ℕ) (U := UR sig nD τ) (Lvl := ℕ) c (exitVal m c)]
  have hpost : iprop((dats m 0 c).arrays ((dats m 0 c).arrAt · cfg0.N) ∗ unscopedRestP Pipeline.Prefetch.none spec0 c (finalVal m c))
      = (StableHlo.held (c.tc : Thread nD τ) (ucRefs τ sig) (StableHlo.after ([hostOps1] : List (List (HloOp τ sig (Elt F)))).flatten (exitVal m c)) : sProp 𝕄) := by
    rw [Pipeline.unscopedRestP_none, hF, ← Pipeline.unscopedBufs_split₀ cfgs 0 winFacts₀0.arr_unscoped c,
      ← Pipeline.unscopedBufs_held (Ix := Unit) (Name := ℕ) (U := UR sig nD τ) (Lvl := ℕ) c]
    simp only [List.flatten_cons, List.flatten_nil, List.append_nil]
    rfl
  rw [hpost]
  rw [show iprop(boundary (c.tc : Thread nD τ) ∗ (dats m 0 c).arrays ((dats m 0 c).arrAt · cfg0.N) ∗ unscopedRestP Pipeline.Prefetch.none spec0 c (V m c))
      = iprop(boundary (c.tc : Thread nD τ) ∗ (StableHlo.held (c.tc : Thread nD τ) (ucRefs τ sig) (exitVal m c) : sProp 𝕄)) from by rw [hpre]]
  rw [show ([StableHlo.seq hostOps1] : List (Prog (TpuEff nD τ sig (Elt F) (Pipeline.Sig Λ₀ (Fin 1) fun p => ((cfgs p).toPCfg (Val := Elt F)).Adm) .tc) PUnit))
      = ([hostOps1] : List (List (HloOp τ sig (Elt F)))).map StableHlo.seq ++ [] from rfl]
  iintro ⟨Hk, Hb⟩
  iapply (Pipeline.wp_seqs_then (fun q => (cfgs q).toPCfg (Val := Elt F)) defs₀ Variants.none c (ucRefs τ sig) [] [hostOps1] (tail_sub) (tail_fresh) (exitVal m c)) $$ Hb
  iintro Hb
  rw [Pipeline.chain_nil, wp_pure]
  imodintro
  iapply Hk
  icases Hb with ⟨-, H⟩
  iexact H

/-! ## The run -/

set_option backward.isDefEq.respectTransparency.types false in
/-- From any memory with zero counters every weakly fair execution of @main terminates, each window's array ends at what
    the proof data computes (the argument arrays unchanged, the result cell at the last running total) and every other
    unscoped buffer at what the five lines leave. -/
theorem run_main : θ_run defs (onTc (τ := τ) (main (F := F))) (s₀ m ρ) (Pipeline.FramePost cfgs (dats m) 0 (finalVal m)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_eq_bufs m c (V m c) _ (arrAt_in0 m c 0) (arrAt_in1 m c 0) (arrAt_in2 m c 0) (arrAt_in3 m c 0) (A_eq m c 4)).symm)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (finalVal m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail m c Q')
    (QY := fun c s => ∀ b ∈ restRefsP sig Pipeline.Prefetch.none spec0, s.mem ((c.tc : Thread nD τ).loc b) = finalVal m c b)
    (hY := fun c s' => by
      iintro ⟨-, HU, HSI⟩
      unfold Pipeline.unscopedRestP
      imodintro
      iapply (pointsTo_read_all (restRefsP sig Pipeline.Prefetch.none spec0) (fun b => (c.tc : Thread nD τ).loc b) (finalVal m c) s')
      isplitl [HU] <;> iassumption)
    (hQ := fun s h c => ⟨(h c).1, Pipeline.rest_of_restP Pipeline.Prefetch.none spec0 (fun k => k.elim0) c (finalVal m c) s (fun k => k.elim0) (h c).2.1 (h c).2.2⟩)

end Cert.Kernel.Pair

end
-- ==== Proof.Bits.Frame.lean ====
/-
  The frame. The run's post has every window's array at what the proof data computes; the two argument arrays are only
  ever read, so they end as they were launched. Stated at any float instance.
-/
import proofs.«169935_j73100343378533_1_alg».proof.Proof.Bits.Launch

set_option maxRecDepth 16384

noncomputable section

namespace Cert.Kernel.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of @main terminates, faults nowhere, and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 0).trans ((arrAt_in0 m c _).trans (V_main_arg0 m c)),
      ((h c).1 2).trans ((arrAt_in2 m c _).trans (V_main_arg1 m c))⟩) (run_main m ρ)

end Cert.Kernel.Pair

end
-- ==== Proof.Claims.lean ====
/-
  The claims. Both programs compute, on the extended reals, the scale times the sum over all ordered pairs of rows of
  (Gaussian weight of the pair's squared distance in the first array, off the diagonal) times (the pair's distance in the
  second array), divided by the pair count: the kernel tile by tile into one accumulator and scaling before dividing,
  the reference over the whole 8192 x 8192 arrays with a guarded root and dividing before scaling. The two frames of the
  kernel are its run read at the argument arrays; the reference's frame is its generated run with the result dropped.
-/
import proofs.«169935_j73100343378533_1_alg».proof.Defs
import proofs.«169935_j73100343378533_1_alg».proof.Proof.Value.Total
import proofs.«169935_j73100343378533_1_alg».proof.Proof.Value.Reference
import proofs.«169935_j73100343378533_1_alg».proof.Proof.Ideal.Frame
import proofs.«169935_j73100343378533_1_alg».proof.Proof.Bits.Frame
import proofs.«169935_j73100343378533_1_alg».proof.Proof.Gen.ReferenceIdeal.Run
import proofs.«169935_j73100343378533_1_alg».proof.Proof.Gen.ReferenceIdeal.Read
import proofs.«169935_j73100343378533_1_alg».proof.Proof.Gen.Pre_finite_inputs

set_option maxRecDepth 16384

noncomputable section

open scoped BigOperators

/-! ## The kernel's result -/

namespace Cert.KernelIdeal.PairValue

open Cert.KernelIdeal Cert.KernelIdeal.Gen Cert.KernelIdeal.Pair Idealize.ShloMosaic Idealize.ShloMosaic.ValueIdx Idealize.ShloMosaic.StableHlo

variable (m : (ℓ : Loc nD τ sig) → Buf (Elt Ideal) ℓ)

/-- After the five host lines the result buffer holds the scale times the quotient of the whole sum by the pair count. -/
theorem kernel_result (c : Dev nD) (i : S_.Idx) :
    finalVal m c main_v3 i
      = Ideal.ofBits .f32 0x3C23D70A#32
          * Ideal.div (∑ a : Fin 8192, ∑ b : Fin 8192, PairLoss.term (V m c main_arg0) (V m c main_arg1) a b) (Ideal.ofBits .f32 0x4C7FF800#32) := by
  rw [← PairLoss.scale_div]
  unfold finalVal hostOps1
  after_results
  show Ideal.div (Ideal.ofBits .f32 0x3C23D70A#32 * shapeCast S_ (exitVal m c (Proc.devRef .tc main_v0)) shapeCasts_S1x1_S_ i)
      (Ideal.ofBits .f32 0x4C7FF800#32) = _
  have hk : ((S1x1.rowMajor (ix2 (0 : Fin 1) (0 : Fin 1))).val : ℕ) = (S_.rowMajor i).val := by
    have h1 := (S1x1.rowMajor (ix2 (0 : Fin 1) (0 : Fin 1))).isLt
    have h2 := (S_.rowMajor i).isLt
    have e1 : S1x1.numel = 1 := by decide
    have e2 : S_.numel = 1 := by decide
    omega
  rw [shapeCast_apply _ shapeCasts_S1x1_S_ i (ix2 (0 : Fin 1) (0 : Fin 1)) hk, exitVal_out, out_value]

end Cert.KernelIdeal.PairValue

/-! ## The claims -/

namespace Cert.Proof.PairClaims

open Idealize.ShloMosaic Idealize.ShloMosaic.TcCoe Idealize.SL.Sem

theorem frame_k : Cert.frame_Kernel := fun m ρ _ => Cert.Kernel.Pair.frame (F := Bits) m ρ
theorem frame_ki : Cert.frame_KernelIdeal := fun m ρ _ => Cert.KernelIdeal.Pair.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- The result buffer is one of the buffers that bypass the region. -/
theorem result_bypasses : Cert.KernelIdeal.main_v3 ∈ Pipeline.restRefs Cert.KernelIdeal.sig Cert.KernelIdeal.spec0 :=
  Pipeline.mem_restRefs_of Cert.KernelIdeal.main_v3 rfl (by decide)

/-- From memories agreeing on the two arrays both programs end at the same number. -/
theorem algebraic : Cert.algebraic_KernelIdeal_ReferenceIdeal := by
  intro m ρ m' ρ' _ hagree
  refine ⟨fun c => Cert.KernelIdeal.Pair.finalVal m c Cert.KernelIdeal.main_v3, ?_, ?_⟩
  · exact (θ_run Cert.KernelIdeal.defs _ _).mono (fun r h c =>
      ⟨(h c).2 _ result_bypasses,
       ((h c).1 0).trans ((Cert.KernelIdeal.Pair.arrAt_in0 m c _).trans (Cert.KernelIdeal.Pair.V_main_arg0 m c)),
       ((h c).1 2).trans ((Cert.KernelIdeal.Pair.arrAt_in2 m c _).trans (Cert.KernelIdeal.Pair.V_main_arg1 m c))⟩)
      (Cert.KernelIdeal.Pair.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2]
    funext i
    rw [Cert.ReferenceIdeal.PairRef.result]
    exact (Cert.KernelIdeal.PairValue.kernel_result m c i).symm

end Cert.Proof.PairClaims

end
-- ==== Proof.lean ====
/- The proof of `Cert.Claim`.

   The kernel computes a pairwise loss over 8192 points: for every ordered pair of distinct rows, the Gaussian weight
   exp(−D/2) of the pair's squared distance D in the first array times the pair's Euclidean distance in the second array,
   summed, scaled by a constant and divided by the number of ordered pairs. It walks the 8192 x 8192 pairs in a 16 x 16
   grid of 512 x 512 tiles, adding each tile's sum to one accumulator that is cleared at the first tile; a few scalar
   host operations finish. The reference forms the whole 8192 x 8192 arrays on the host.

   Frames (Proof/Ideal, and its copy Proof/Bits for the word-level program): the body's triple at the first grid point and
   at a later one; the running total after each point by recursion on the point; the region's proof data, in which the two
   windows that read one array hold half of it each; the launch, where the halves are split off the whole arrays at entry
   and joined again for the host lines. Values (Proof/Value): one tile's arithmetic at an entry; blocks as rows of the
   arrays and the mask as equality of row numbers; the running sum in closed form and the 256 tiles regrouped into all
   pairs; the reference read stage by stage. Proof/PairLoss.lean states the loss's term and the laws joining the two
   spellings (the guarded root, the halved negated square, one minus the diagonal's indicator, scaling before or after
   the division); they hold at every extended-real value, so the precondition is never opened. -/
import proofs.«169935_j73100343378533_1_alg».proof.Defs
import proofs.«169935_j73100343378533_1_alg».proof.Proof.Claims
import proofs.«169935_j73100343378533_1_alg».proof.Proof.Gen.Kernel
import proofs.«169935_j73100343378533_1_alg».proof.Proof.Gen.Kernel.Skeleton
import proofs.«169935_j73100343378533_1_alg».proof.Proof.Gen.Kernel.Launch
import proofs.«169935_j73100343378533_1_alg».proof.Proof.Gen.Kernel.Points
import proofs.«169935_j73100343378533_1_alg».proof.Proof.Gen.KernelIdeal
import proofs.«169935_j73100343378533_1_alg».proof.Proof.Gen.KernelIdeal.Skeleton
import proofs.«169935_j73100343378533_1_alg».proof.Proof.Gen.KernelIdeal.Launch
import proofs.«169935_j73100343378533_1_alg».proof.Proof.Gen.KernelIdeal.Points
import proofs.«169935_j73100343378533_1_alg».proof.Proof.Gen.ReferenceIdeal
import proofs.«169935_j73100343378533_1_alg».proof.Proof.Gen.ReferenceIdeal.Run
import proofs.«169935_j73100343378533_1_alg».proof.Proof.Gen.ReferenceIdeal.Read
import proofs.«169935_j73100343378533_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    PairClaims.frame_k, PairClaims.frame_ki, PairClaims.frame_ri, PairClaims.preserves, PairClaims.algebraic⟩

end Cert.Proof

end
